-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S32x32 .f32) (main_arg10 : FVec F S32 .f32) (main_arg11 : FVec F S32x10 .f32) (main_arg12 : FVec F S10 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x10 .f32 := Host.absf main_arg11
  let main_cst_16 : FVec F S_ .f32 := constant S_ .f32 0x7F800000#32
  let main_v45 : FVec F S32x10 .f32 := broadcastInDim S32x10 ![] bcast_S_S32x10 main_cst_16
  let main_v46 : IVec S32x10 1 := cmpf .olt main_v44 main_v45
  let main_c_17 : IVec S_ 1 := constantI S_ 1 1#1
  let main_v47 : IVec S_ 1 := (fun x v => Host.reduce IntOp.andi x v reducesTo_S32x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S32 .f32) (main_arg7 : FVec F S32 .f32) (main_arg8 : FVec F S32 .f32) (main_arg9 : FVec F S32x32 .f32) (main_arg10 : FVec F S32 .f32) (main_arg11 : FVec F S32x10 .f32) (main_arg12 : FVec F S10 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x32 .f32) (main_arg4 : FVec F S32 .f32) (main_arg5 : FVec F S32x32 .f32) (main_arg6 : FVec F S32 .f32) (main_arg7 : FVec F S32 .f32) (main_arg8 : FVec F S32 .f32) (main_arg9 : FVec F S32x32 .f32) (main_arg10 : FVec F S32 .f32) (main_arg11 : FVec F S32x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x32 : Shape := ⟨2, ![1, 32]⟩
abbrev S50000x32 : Shape := ⟨2, ![50000, 32]⟩
abbrev S10000x128 : Shape := ⟨2, ![10000, 128]⟩
abbrev S10000x32 : Shape := ⟨2, ![10000, 32]⟩
abbrev S800000x32 : Shape := ⟨2, ![800000, 32]⟩
abbrev S1x10 : Shape := ⟨2, ![1, 10]⟩
abbrev S50000x10 : Shape := ⟨2, ![50000, 10]⟩
abbrev S10000x10 : Shape := ⟨2, ![10000, 10]⟩

abbrev nBuf : Space → Nat
  | .hbm => 68
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S32x10, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S1x32, .f32⟩
  | .hbm, ⟨32, _⟩ => ⟨S1x32, .f32⟩
  | .hbm, ⟨33, _⟩ => ⟨S50000x32, .f32⟩
  | .hbm, ⟨34, _⟩ => ⟨S1x32, .f32⟩
  | .hbm, ⟨35, _⟩ => ⟨S1x32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S32, .f32⟩
  | .hbm, ⟨45, _⟩ => ⟨S32, .f32⟩
  | .hbm, ⟨46, _⟩ => ⟨S1x32, .f32⟩
  | .hbm, ⟨47, _⟩ => ⟨S1x32, .f32⟩
  | .hbm, ⟨48, _⟩ => ⟨S1x32, .f32⟩
  | .hbm, ⟨49, _⟩ => ⟨S1x32, .f32⟩
  | .hbm, ⟨50, _⟩ => ⟨S50000x32, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x32, .f32⟩
  | .hbm, ⟨60, _⟩ => ⟨S_, .f32⟩
  | .hbm, ⟨61, _⟩ => ⟨S50000x32, .f32⟩
  | .hbm, ⟨62, _⟩ => ⟨S800000x1, .i32⟩
  | .hbm, ⟨63, _⟩ => ⟨S50000x32, .f32⟩
  | .hbm, ⟨64, _⟩ => ⟨S50000x32, .f32⟩
  | .hbm, ⟨65, _⟩ => ⟨S1x32, .f32⟩
  | .hbm, ⟨66, _⟩ => ⟨S1x10, .f32⟩
  | .hbm, ⟨67, _⟩ => ⟨S50000x10, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S10000x32, .f32⟩
  | .local _ .vmem, ⟨7, _⟩ => ⟨S10000x32, .f32⟩
  | .local _ .vmem, ⟨8, _⟩ => ⟨S1x32, .f32⟩
  | .local _ .vmem, ⟨9, _⟩ => ⟨S1x32, .f32⟩
  | .local _ .vmem, ⟨10, _⟩ => ⟨S10000x32, .f32⟩
  | .local _ .vmem, ⟨11, _⟩ => ⟨S10000x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S32x32, .f32⟩
  | .local _ .vmem, ⟨21, _⟩ => ⟨S1x32, .f32⟩
  | .local _ .vmem, ⟨22, _⟩ => ⟨S32x10, .f32⟩
  | .local _ .vmem, ⟨23, _⟩ => ⟨S1x10, .f32⟩
  | .local _ .vmem, ⟨24, _⟩ => ⟨S10000x10, .f32⟩
  | .local _ .vmem, ⟨25, _⟩ => ⟨S10000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x10 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S32_S1x32 : S32.ShapeCasts S1x32
  inb_S1x32_S1x32_0_0 : ∀ a, (![0, 0] : Fin 2 → Nat) a + S1x32.size a ≤ S1x32.size a
  h_S1x32 : 0 < S1x32.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  reduces_S10000x32_S32 : S10000x32.Reduces [0] S32
  shapeCasts_S1x32_S32 : S1x32.ShapeCasts S32
  bcast_S_S32 : S_.BroadcastsInDim S32 (![] : Fin 0 → Fin S32.rank)
  shapeCasts_S10000x32_S10000x32 : S10000x32.ShapeCasts S10000x32
  bcast_S_S50000x32 : S_.BroadcastsInDim S50000x32 (![] : Fin 0 → Fin S50000x32.rank)
  shapeCasts_S10_S1x10 : S10.ShapeCasts S1x10
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x32_S10000x32_1_0_0_1_n_n_wf : DotDims.WF S10000x128 S128x32 S10000x32 [1] [0] [0] [1] [] []
  dot_S10000x32_S32x32_S10000x32_1_0_0_1_n_n_wf : DotDims.WF S10000x32 S32x32 S10000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S10000x32_S32x10_S10000x10_1_0_0_1_n_n_wf : DotDims.WF S10000x32 S32x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S50000x32.size a
  hwx0_5 : ∀ i : grid0.Coords, EltTy.bits .f32 = 32 ∨ (Rect.block (s := S50000x32) S10000x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S50000x32.size a
  hwx1_5 : ∀ i : grid1.Coords, EltTy.bits .f32 = 32 ∨ (Rect.block (s := S50000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S50000x32.size a
  hwx2_0 : ∀ i : grid2.Coords, EltTy.bits .f32 = 32 ∨ (Rect.block (s := S50000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x10.size a ≤ S32x10.size a
  hwx2_3 : ∀ i : grid2.Coords, EltTy.bits .f32 = 32 ∨ (Rect.block (s := S32x10) S32x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x10.size a ≤ S1x10.size a
  hwx2_4 : ∀ i : grid2.Coords, EltTy.bits .f32 = 32 ∨ (Rect.block (s := S1x10) S1x10.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x10.size a ≤ S50000x10.size a
  hwx2_5 : ∀ i : grid2.Coords, EltTy.bits .f32 = 32 ∨ (Rect.block (s := S50000x10) S10000x10.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S10000x32_S32x10_S10000x10_1_0_0_1_n_n : DotDims S10000x32 S32x10 S10000x10 where
  lhsContracting := [1]
  rhsContracting := [0]
  lhsNonContracting := [0]
  rhsNonContracting := [1]
  lhsBatch := []
  rhsBatch := []
  wf := dot_S10000x32_S32x10_S10000x10_1_0_0_1_n_n_wf

abbrev win0_0 : Pipeline.Window sig grid0 :=
  Pipeline.Window.ofSpec (Memref.whole main_v14) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S10000x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1x32.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_2) S1x32.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17_0) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S32x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v43) S1x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S10000x10.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x32 : Shape := ⟨2, ![128, 32]⟩
abbrev S32 : Shape := ⟨1, ![32]⟩
abbrev S32x32 : Shape := ⟨2, ![32, 32]⟩
abbrev S32x10 : Shape := ⟨2, ![32, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x32 : Shape := ⟨2, ![50000, 32]⟩
abbrev S1x32 : Shape := ⟨2, ![1, 32]⟩
abbrev S800000x32 : Shape := ⟨2, ![800000, 32]⟩
abbrev S50000x10 : Shape := ⟨2, ![50000, 10]⟩
abbrev S1x10 : Shape := ⟨2, ![1, 10]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S32x10, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x32, .f32⟩
  | .hbm, ⟨32, _⟩ => ⟨S1x32, .f32⟩
  | .hbm, ⟨33, _⟩ => ⟨S50000x32, .f32⟩
  | .hbm, ⟨34, _⟩ => ⟨S50000x32, .f32⟩
  | .hbm, ⟨35, _⟩ => ⟨S_, .f32⟩
  | .hbm, ⟨36, _⟩ => ⟨S50000x32, .f32⟩
  | .hbm, ⟨37, _⟩ => ⟨S50000x32, .f32⟩
  | .hbm, ⟨38, _⟩ => ⟨S50000x32, .f32⟩
  | .hbm, ⟨39, _⟩ => ⟨S1x32, .f32⟩
  | .hbm, ⟨40, _⟩ => ⟨S50000x32, .f32⟩
  | .hbm, ⟨41, _⟩ => ⟨S50000x32, .f32⟩
  | .hbm, ⟨42, _⟩ => ⟨S_, .f32⟩
  | .hbm, ⟨43, _⟩ => ⟨S50000x32, .f32⟩
  | .hbm, ⟨44, _⟩ => ⟨S50000x32, .f32⟩
  | .hbm, ⟨45, _⟩ => ⟨S_, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S1x32, .f32⟩
  | .hbm, ⟨51, _⟩ => ⟨S50000x32, .f32⟩
  | .hbm, ⟨52, _⟩ => ⟨S50000x32, .f32⟩
  | .hbm, ⟨53, _⟩ => ⟨S50000x32, .f32⟩
  | .hbm, ⟨54, _⟩ => ⟨S_, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S1x32, .f32⟩
  | .hbm, ⟨60, _⟩ => ⟨S50000x32, .f32⟩
  | .hbm, ⟨61, _⟩ => ⟨S50000x32, .f32⟩
  | .hbm, ⟨62, _⟩ => ⟨S_, .f32⟩
  | .hbm, ⟨63, _⟩ => ⟨S32, .f32⟩
  | .hbm, ⟨64, _⟩ => ⟨S32, .f32⟩
  | .hbm, ⟨65, _⟩ => ⟨S32, .f32⟩
  | .hbm, ⟨66, _⟩ => ⟨S1x32, .f32⟩
  | .hbm, ⟨67, _⟩ => ⟨S50000x32, .f32⟩
  | .hbm, ⟨68, _⟩ => ⟨S50000x32, .f32⟩
  | .hbm, ⟨69, _⟩ => ⟨S1x32, .f32⟩
  | .hbm, ⟨70, _⟩ => ⟨S50000x32, .f32⟩
  | .hbm, ⟨71, _⟩ => ⟨S50000x32, .f32⟩
  | .hbm, ⟨72, _⟩ => ⟨S1x32, .f32⟩
  | .hbm, ⟨73, _⟩ => ⟨S50000x32, .f32⟩
  | .hbm, ⟨74, _⟩ => ⟨S50000x32, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x32, .f32⟩
  | .hbm, ⟨84, _⟩ => ⟨S_, .f32⟩
  | .hbm, ⟨85, _⟩ => ⟨S50000x32, .f32⟩
  | .hbm, ⟨86, _⟩ => ⟨S800000x1, .i32⟩
  | .hbm, ⟨87, _⟩ => ⟨S50000x32, .f32⟩
  | .hbm, ⟨88, _⟩ => ⟨S50000x32, .f32⟩
  | .hbm, ⟨89, _⟩ => ⟨S50000x32, .f32⟩
  | .hbm, ⟨90, _⟩ => ⟨S1x32, .f32⟩
  | .hbm, ⟨91, _⟩ => ⟨S50000x32, .f32⟩
  | .hbm, ⟨92, _⟩ => ⟨S50000x32, .f32⟩
  | .hbm, ⟨93, _⟩ => ⟨S_, .f32⟩
  | .hbm, ⟨94, _⟩ => ⟨S50000x32, .f32⟩
  | .hbm, ⟨95, _⟩ => ⟨S50000x32, .f32⟩
  | .hbm, ⟨96, _⟩ => ⟨S50000x10, .f32⟩
  | .hbm, ⟨97, _⟩ => ⟨S1x10, .f32⟩
  | .hbm, ⟨98, _⟩ => ⟨S50000x10, .f32⟩
  | .hbm, ⟨99, _⟩ => ⟨S50000x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_c_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  reducesTo_S50000x32_S32_d0 : S50000x32.ReducesTo [0] S32
  h_S_ : 0 < S_.numel
  bcast_S_S32 : S_.BroadcastsInDim S32 (![] : Fin 0 → Fin S32.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x32_S50000x32_1_0_0_1_n_n_wf : DotDims.WF S50000x128 S128x32 S50000x32 [1] [0] [0] [1] [] []
  dot_S50000x32_S32x32_S50000x32_1_0_0_1_n_n_wf : DotDims.WF S50000x32 S32x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  dot_S50000x32_S32x10_S50000x10_1_0_0_1_n_n_wf : DotDims.WF S50000x32 S32x10 S50000x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x10_S50000x10_1_0_0_1_n_n : DotDims S50000x32 S32x10 S50000x10 where
  lhsContracting := [1]
  rhsContracting := [0]
  lhsNonContracting := [0]
  rhsNonContracting := [1]
  lhsBatch := []
  rhsBatch := []
  wf := dot_S50000x32_S32x10_S50000x10_1_0_0_1_n_n_wf

class Facts : Prop extends Facts₀ where

variable [Facts]
-- ==== Proof.Spec.lean ====
/-
  The mathematics of the two programs, entry by entry, on the extended reals.

  A node's features are first aggregated over its incoming edges (the node's own row plus the sum of the rows of
  its in-neighbours): that map is the same sequence of host operations in both programs, so it enters here as a
  parameter (`A1` on 128 columns, `A2` on 32). Then two dense layers with a rectifier after each, a batch
  normalisation over the 50000 rows of each of the 32 columns, a second aggregation, and two more dense layers.
  The programs differ in ONE place: the variance of a column is the mean of the squared deviations from the mean
  in one program (`varR`) and the mean of the squares less the square of the mean in the other (`varK`, from the
  two column sums a grid of five row blocks accumulates). On real entries the two agree.
-/
import Mathlib.Data.EReal.Operations
import Idealize.ShloMosaic.PureOps.Ideal
import Idealize.ShloMosaic.Lib.ValueIdx

noncomputable section

namespace Cert.Gin

open Idealize.ShloMosaic Idealize.ShloMosaic.ValueIdx

/-- An `n × k` matrix of extended reals, indexed as the programs index a rank-2 array. -/
abbrev Mat (n k : Nat) : Type := (⟨2, ![n, k]⟩ : Shape).Idx → EReal
/-- A vector of `k` extended reals. -/
abbrev Vct (k : Nat) : Type := (⟨1, ![k]⟩ : Shape).Idx → EReal

/-- The row of an entry's index, below the literal extent. -/
abbrev row {n k : Nat} (i : (⟨2, ![n, k]⟩ : Shape).Idx) : Fin n := ⟨(i 0).val, idx2_lt0 i⟩
/-- The column of an entry's index, below the literal extent. -/
abbrev col {n k : Nat} (i : (⟨2, ![n, k]⟩ : Shape).Idx) : Fin k := ⟨(i 1).val, idx2_lt1 i⟩

theorem ix2_row_col {n k : Nat} (i : (⟨2, ![n, k]⟩ : Shape).Idx) : ix2 (row i) (col i) = i := (eq_ix2 i).symm

/-- The float word of zero, of the row count 50000, and of the stabiliser added to a variance. -/
abbrev zeroW : EReal := Ideal.ofBits .f32 0x00000000#32
abbrev nW : EReal := Ideal.ofBits .f32 0x47435000#32
abbrev epsW : EReal := Ideal.ofBits .f32 0x3727C5AC#32

/-- A vector laid out as a matrix of one row. -/
def rowOf {k : Nat} (v : Vct k) : Mat 1 k := fun i => v (ix1 (col i))

theorem rowOf_apply {k : Nat} (v : Vct k) (q : Fin k) : rowOf v (ix2 (0 : Fin 1) q) = v (ix1 q) := rfl

/-! ## The first pair of dense layers -/

/-- Entry `(p, q)` of `max (max (h · Wa + ba) 0 · Wb + bb) 0`. -/
def mlp1At (h : Mat 50000 128) (Wa : Mat 128 32) (ba : Mat 1 32) (Wb : Mat 32 32) (bb : Mat 1 32)
    (p : Fin 50000) (q : Fin 32) : EReal :=
  max ((∑ k : Fin 32, max ((∑ j : Fin 128, h (ix2 p j) * Wa (ix2 j k)) + ba (ix2 (0 : Fin 1) k)) zeroW * Wb (ix2 k q))
    + bb (ix2 (0 : Fin 1) q)) zeroW

def mlp1 (h : Mat 50000 128) (Wa : Mat 128 32) (ba : Mat 1 32) (Wb : Mat 32 32) (bb : Mat 1 32) : Mat 50000 32 :=
  fun i => mlp1At h Wa ba Wb bb (row i) (col i)

theorem mlp1_apply (h : Mat 50000 128) (Wa : Mat 128 32) (ba : Mat 1 32) (Wb : Mat 32 32) (bb : Mat 1 32)
    (p : Fin 50000) (q : Fin 32) : mlp1 h Wa ba Wb bb (ix2 p q) = mlp1At h Wa ba Wb bb p q := rfl

/-! ## Column statistics -/

/-- The sum of each column over the 50000 rows, and the sum of the squares, as one-row matrices. -/
def colSum (z : Mat 50000 32) : Mat 1 32 := fun i => ∑ r : Fin 50000, z (ix2 r (col i))
def colSumSq (z : Mat 50000 32) : Mat 1 32 := fun i => ∑ r : Fin 50000, z (ix2 r (col i)) * z (ix2 r (col i))

/-- Mean and variance from the two accumulated rows: `s / n` and `sq / n - (s / n)²`. -/
def meanK (s : Mat 1 32) : Mat 1 32 := fun i => Ideal.div (s (ix2 (0 : Fin 1) (col i))) nW
def varK (s sq : Mat 1 32) : Mat 1 32 := fun i =>
  Ideal.div (sq (ix2 (0 : Fin 1) (col i))) nW
    - Ideal.div (s (ix2 (0 : Fin 1) (col i))) nW * Ideal.div (s (ix2 (0 : Fin 1) (col i))) nW

/-- Mean and variance as a host reduction states them: sums started from the zero word, the variance the mean of the
    squared deviations. -/
def meanR (z : Mat 50000 32) : Mat 1 32 := fun i => Ideal.div (zeroW + ∑ r : Fin 50000, z (ix2 r (col i))) nW
def varR (z : Mat 50000 32) : Mat 1 32 := fun i =>
  Ideal.div (zeroW + ∑ r : Fin 50000,
    (z (ix2 r (col i)) - meanR z (ix2 (0 : Fin 1) (col i))) * (z (ix2 r (col i)) - meanR z (ix2 (0 : Fin 1) (col i)))) nW

/-- The statistics as each program has them. -/
def statK (z : Mat 50000 32) : Mat 1 32 × Mat 1 32 := (meanK (colSum z), varK (colSum z) (colSumSq z))
def statR (z : Mat 50000 32) : Mat 1 32 × Mat 1 32 := (meanR z, varR z)

/-! ## The normalisation -/

/-- Entry `(p, q)` of `(z - mu) · rsqrt (var + eps) · g + b`, the statistics and the affine pair one row each. -/
def bnAt (z : Mat 50000 32) (mu var g b : Mat 1 32) (p : Fin 50000) (q : Fin 32) : EReal :=
  (z (ix2 p q) - mu (ix2 (0 : Fin 1) q)) * Ideal.rsqrt (var (ix2 (0 : Fin 1) q) + epsW) * g (ix2 (0 : Fin 1) q)
    + b (ix2 (0 : Fin 1) q)

def bn (z : Mat 50000 32) (mu var g b : Mat 1 32) : Mat 50000 32 := fun i => bnAt z mu var g b (row i) (col i)

theorem bn_apply (z : Mat 50000 32) (mu var g b : Mat 1 32) (p : Fin 50000) (q : Fin 32) :
    bn z mu var g b (ix2 p q) = bnAt z mu var g b p q := rfl

/-! ## The second pair of dense layers -/

/-- Entry `(p, q)` of `max (h2 · Wa + ba) 0 · Wb + bb`. -/
def mlp2At (h2 : Mat 50000 32) (Wa : Mat 32 32) (ba : Mat 1 32) (Wb : Mat 32 10) (bb : Mat 1 10)
    (p : Fin 50000) (q : Fin 10) : EReal :=
  (∑ k : Fin 32, max ((∑ j : Fin 32, h2 (ix2 p j) * Wa (ix2 j k)) + ba (ix2 (0 : Fin 1) k)) zeroW * Wb (ix2 k q))
    + bb (ix2 (0 : Fin 1) q)

def mlp2 (h2 : Mat 50000 32) (Wa : Mat 32 32) (ba : Mat 1 32) (Wb : Mat 32 10) (bb : Mat 1 10) : Mat 50000 10 :=
  fun i => mlp2At h2 Wa ba Wb bb (row i) (col i)

theorem mlp2_apply (h2 : Mat 50000 32) (Wa : Mat 32 32) (ba : Mat 1 32) (Wb : Mat 32 10) (bb : Mat 1 10)
    (p : Fin 50000) (q : Fin 10) : mlp2 h2 Wa ba Wb bb (ix2 p q) = mlp2At h2 Wa ba Wb bb p q := rfl

/-! ## The whole network -/

/-- The network's result from its thirteen arguments (the edge list sits inside the aggregation maps `A1`, `A2`),
    with the column statistics `stat` left open: `statK` is one program, `statR` the other. -/
def out (stat : Mat 50000 32 → Mat 1 32 × Mat 1 32) (A1 : Mat 50000 128 → Mat 50000 128)
    (A2 : Mat 50000 32 → Mat 50000 32) (x : Mat 50000 128) (W1a : Mat 128 32) (b1a : Vct 32) (W1b : Mat 32 32)
    (b1b g be : Vct 32) (W2a : Mat 32 32) (b2a : Vct 32) (W2b : Mat 32 10) (b2b : Vct 10) : Mat 50000 10 :=
  mlp2 (A2 (bn (mlp1 (A1 x) W1a (rowOf b1a) W1b (rowOf b1b))
      (stat (mlp1 (A1 x) W1a (rowOf b1a) W1b (rowOf b1b))).1 (stat (mlp1 (A1 x) W1a (rowOf b1a) W1b (rowOf b1b))).2
      (rowOf g) (rowOf be)))
    W2a (rowOf b2a) W2b (rowOf b2b)

end Cert.Gin

end
-- ==== Proof.RefAgg.lean ====
/-
  The aggregation over incoming edges as a function of the array it aggregates.

  On 128 columns it is the reference program's own stage `val_main_v14` (the node's row plus the scatter-add, over
  the edge targets, of the rows gathered at the edge sources). On 32 columns the reference applies the same
  operations to the normalised features; here they are named as one function `agg32` of that array and the edge
  list, so that both programs' second aggregation is this function of their normalised features.
-/
import proofs.«153798_j29678224015468_1_alg».proof.Proof.Gen.ReferenceIdeal.Read

noncomputable section

namespace Cert.ReferenceIdeal.Agg

open Cert.ReferenceIdeal Cert.ReferenceIdeal.Gen Cert.ReferenceIdeal.Read Idealize.ShloMosaic

variable {F : FTy → Type} [FloatOps F]

/-- A `50000 × 32` array plus, row by row, the sum of its rows at the sources of the edges that point to the row. -/
def agg32 (z : (⟨S50000x32, .f32⟩ : BufTy).Contents (Elt F)) (x1 : (⟨S2x800000, .i32⟩ : BufTy).Contents (Elt F)) :
    (⟨S50000x32, .f32⟩ : BufTy).Contents (Elt F) :=
  addf (z) (Host.scatterAdd scatter_S50000x32_S800000x1_S800000x32_1_0_0_1 (val_main_v59 (F := F)) (val_main_v60 (F := F) x1)
    (Host.gather gather_S50000x32_S800000x1_S800000x32_1_0_n_n_0_1_132 (z) (val_main_v57 (F := F) x1)))

/-- The reference's second aggregation is `agg32` of its normalised features. -/
theorem val_main_v62_eq_agg32 (x0 : (⟨S50000x128, .f32⟩ : BufTy).Contents (Elt F)) (x1 : (⟨S2x800000, .i32⟩ : BufTy).Contents (Elt F))
    (x3 : (⟨S128x32, .f32⟩ : BufTy).Contents (Elt F)) (x4 : (⟨S32, .f32⟩ : BufTy).Contents (Elt F))
    (x5 : (⟨S32x32, .f32⟩ : BufTy).Contents (Elt F)) (x6 x7 x8 : (⟨S32, .f32⟩ : BufTy).Contents (Elt F)) :
    val_main_v62 (F := F) x0 x1 x3 x4 x5 x6 x7 x8 = agg32 (F := F) (val_main_v51 (F := F) x0 x1 x3 x4 x5 x6 x7 x8) x1 := by
  unfold val_main_v62 val_main_v61 val_main_v58 agg32
  rfl

end Cert.ReferenceIdeal.Agg

end
-- ==== Proof.KReg0Pieces.lean ====
/-
  The first kernel's body, case by case: what its stores leave in its three outputs.

  The body has one conditional, taken at the first grid point only, which stores the zero row into the two one-row
  outputs before anything else. In either case the body then stores the block of the two dense layers into the
  row-tiled output, reads each one-row output back, and stores it again with the block's column sums (of the
  entries, of their squares) added. So each output's buffer after the body is one value of the blocks the body
  loaded: the dense layers of the block, and "the row as it was, or the zero row at the first point, plus the
  block's column sums". The lemmas hold for any float values.
-/
import proofs.«153798_j29678224015468_1_alg».proof.Proof.Gen.KernelIdeal.Frame
import Idealize.ShloMosaic.Lib.Pipeline.Value

noncomputable section

namespace Cert.KernelIdeal.KV.R0

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-! ## What each case of the body leaves in the three outputs, as payloads of the blocks it loads -/

/-- At the first point the row-tiled output holds the dense layers of the point's block. -/
theorem out_A_5 (c : Dev nD) (i : grid0.Coords) (a1 : Memref sig .tc .vmem S10000x128 .f32) (h1 : a1.IsWhole) (a2 : Memref sig .tc .vmem S128x32 .f32) (h2 : a2.IsWhole) (a3 : Memref sig .tc .vmem S1x32 .f32) (h3 : a3.IsWhole) (a4 : Memref sig .tc .vmem S32x32 .f32) (h4 : a4.IsWhole) (a5 : Memref sig .tc .vmem S1x32 .f32) (h5 : a5.IsWhole) (a6 : Memref sig .tc .vmem S10000x32 .f32) (h6 : a6.IsWhole) (a7 : Memref sig .tc .vmem S1x32 .f32) (h7 : a7.IsWhole) (a8 : Memref sig .tc .vmem S1x32 .f32) (h8 : a8.IsWhole) (hc : cond0_0 i) (x0 : Vec F S10000x128 .f32) (x1 : Vec F S128x32 .f32) (x2 : Vec F S1x32 .f32) (x3 : Vec F S32x32 .f32) (x4 : Vec F S1x32 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz]
  simp only [View.readAt_eq_ld, h1.read_unread, h2.read_unread, h3.read_unread, h4.read_unread, h5.read_unread,
    View.ld_unit_zero (S := S10000x128) hz, View.ld_unit_zero (S := S128x32) hz, View.ld_unit_zero (S := S1x32) hz, View.ld_unit_zero (S := S32x32) hz]

/-- At the first point the sum row is reset to the zero row and then the block's column sums are added to it. -/
theorem out_A_6 (c : Dev nD) (i : grid0.Coords) (a1 : Memref sig .tc .vmem S10000x128 .f32) (h1 : a1.IsWhole) (a2 : Memref sig .tc .vmem S128x32 .f32) (h2 : a2.IsWhole) (a3 : Memref sig .tc .vmem S1x32 .f32) (h3 : a3.IsWhole) (a4 : Memref sig .tc .vmem S32x32 .f32) (h4 : a4.IsWhole) (a5 : Memref sig .tc .vmem S1x32 .f32) (h5 : a5.IsWhole) (a6 : Memref sig .tc .vmem S10000x32 .f32) (h6 : a6.IsWhole) (a7 : Memref sig .tc .vmem S1x32 .f32) (h7 : a7.IsWhole) (a8 : Memref sig .tc .vmem S1x32 .f32) (h8 : a8.IsWhole) (hc : cond0_0 i) (x0 : Vec F S10000x128 .f32) (x1 : Vec F S128x32 .f32) (x2 : Vec F S1x32 .f32) (x3 : Vec F S32x32 .f32) (x4 : Vec F S1x32 .f32) :
    out0_A_6 c i a1 h1 a2 h2 a3 h3 a4 h4 a5 h5 a6 h6 a7 h7 a8 h8 hc x0 x1 x2 x3 x4 = k0_pay5 x0 x1 x2 x3 x4 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x32) hz, View.readCov_unit_zero (S := S1x32) _ hz]
  simp only [View.readAt_eq_ld, h1.read_unread, h2.read_unread, h3.read_unread, h4.read_unread, h5.read_unread,
    View.ld_unit_zero (S := S10000x128) hz, View.ld_unit_zero (S := S128x32) hz, View.ld_unit_zero (S := S1x32) hz, View.ld_unit_zero (S := S32x32) hz]

/-- At the first point the row of sums of squares is reset to the zero row and then the block's are added to it. -/
theorem out_A_7 (c : Dev nD) (i : grid0.Coords) (a1 : Memref sig .tc .vmem S10000x128 .f32) (h1 : a1.IsWhole) (a2 : Memref sig .tc .vmem S128x32 .f32) (h2 : a2.IsWhole) (a3 : Memref sig .tc .vmem S1x32 .f32) (h3 : a3.IsWhole) (a4 : Memref sig .tc .vmem S32x32 .f32) (h4 : a4.IsWhole) (a5 : Memref sig .tc .vmem S1x32 .f32) (h5 : a5.IsWhole) (a6 : Memref sig .tc .vmem S10000x32 .f32) (h6 : a6.IsWhole) (a7 : Memref sig .tc .vmem S1x32 .f32) (h7 : a7.IsWhole) (a8 : Memref sig .tc .vmem S1x32 .f32) (h8 : a8.IsWhole) (hc : cond0_0 i) (x0 : Vec F S10000x128 .f32) (x1 : Vec F S128x32 .f32) (x2 : Vec F S1x32 .f32) (x3 : Vec F S32x32 .f32) (x4 : Vec F S1x32 .f32) :
    out0_A_7 c i a1 h1 a2 h2 a3 h3 a4 h4 a5 h5 a6 h6 a7 h7 a8 h8 hc x0 x1 x2 x3 x4 = k0_pay1 (k0_pay4 x0 x1 x2 x3 x4) (k0_pay3 (F := F)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x32) hz, View.readCov_unit_zero (S := S1x32) _ hz]
  simp only [View.readAt_eq_ld, h1.read_unread, h2.read_unread, h3.read_unread, h4.read_unread, h5.read_unread,
    View.ld_unit_zero (S := S10000x128) hz, View.ld_unit_zero (S := S128x32) hz, View.ld_unit_zero (S := S1x32) hz, View.ld_unit_zero (S := S32x32) hz]

/-- At a later point the row-tiled output holds the dense layers of the point's block. -/
theorem out_B_5 (c : Dev nD) (i : grid0.Coords) (a1 : Memref sig .tc .vmem S10000x128 .f32) (h1 : a1.IsWhole) (a2 : Memref sig .tc .vmem S128x32 .f32) (h2 : a2.IsWhole) (a3 : Memref sig .tc .vmem S1x32 .f32) (h3 : a3.IsWhole) (a4 : Memref sig .tc .vmem S32x32 .f32) (h4 : a4.IsWhole) (a5 : Memref sig .tc .vmem S1x32 .f32) (h5 : a5.IsWhole) (a6 : Memref sig .tc .vmem S10000x32 .f32) (h6 : a6.IsWhole) (a7 : Memref sig .tc .vmem S1x32 .f32) (h7 : a7.IsWhole) (a8 : Memref sig .tc .vmem S1x32 .f32) (h8 : a8.IsWhole) (hc : ¬cond0_0 i) (x0 : Vec F S10000x128 .f32) (x1 : Vec F S128x32 .f32) (x2 : Vec F S1x32 .f32) (x3 : Vec F S32x32 .f32) (x4 : Vec F S1x32 .f32) (xo6 xo7 : Vec F S1x32 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread,
    View.ld_unit_zero (S := S10000x128) hz, View.ld_unit_zero (S := S128x32) hz, View.ld_unit_zero (S := S1x32) hz, View.ld_unit_zero (S := S32x32) hz]

/-- At a later point the block's column sums are added to the sum row the point before left. -/
theorem out_B_6 (c : Dev nD) (i : grid0.Coords) (a1 : Memref sig .tc .vmem S10000x128 .f32) (h1 : a1.IsWhole) (a2 : Memref sig .tc .vmem S128x32 .f32) (h2 : a2.IsWhole) (a3 : Memref sig .tc .vmem S1x32 .f32) (h3 : a3.IsWhole) (a4 : Memref sig .tc .vmem S32x32 .f32) (h4 : a4.IsWhole) (a5 : Memref sig .tc .vmem S1x32 .f32) (h5 : a5.IsWhole) (a6 : Memref sig .tc .vmem S10000x32 .f32) (h6 : a6.IsWhole) (a7 : Memref sig .tc .vmem S1x32 .f32) (h7 : a7.IsWhole) (a8 : Memref sig .tc .vmem S1x32 .f32) (h8 : a8.IsWhole) (hc : ¬cond0_0 i) (x0 : Vec F S10000x128 .f32) (x1 : Vec F S128x32 .f32) (x2 : Vec F S1x32 .f32) (x3 : Vec F S32x32 .f32) (x4 : Vec F S1x32 .f32) (xo6 xo7 : Vec F S1x32 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread, h7.read_unread,
    View.ld_unit_zero (S := S10000x128) hz, View.ld_unit_zero (S := S128x32) hz, View.ld_unit_zero (S := S1x32) hz, View.ld_unit_zero (S := S32x32) hz]

/-- At a later point the block's column sums of squares are added to the row the point before left. -/
theorem out_B_7 (c : Dev nD) (i : grid0.Coords) (a1 : Memref sig .tc .vmem S10000x128 .f32) (h1 : a1.IsWhole) (a2 : Memref sig .tc .vmem S128x32 .f32) (h2 : a2.IsWhole) (a3 : Memref sig .tc .vmem S1x32 .f32) (h3 : a3.IsWhole) (a4 : Memref sig .tc .vmem S32x32 .f32) (h4 : a4.IsWhole) (a5 : Memref sig .tc .vmem S1x32 .f32) (h5 : a5.IsWhole) (a6 : Memref sig .tc .vmem S10000x32 .f32) (h6 : a6.IsWhole) (a7 : Memref sig .tc .vmem S1x32 .f32) (h7 : a7.IsWhole) (a8 : Memref sig .tc .vmem S1x32 .f32) (h8 : a8.IsWhole) (hc : ¬cond0_0 i) (x0 : Vec F S10000x128 .f32) (x1 : Vec F S128x32 .f32) (x2 : Vec F S1x32 .f32) (x3 : Vec F S32x32 .f32) (x4 : Vec F S1x32 .f32) (xo6 xo7 : Vec F S1x32 .f32) :
    out0_B_7 c i a1 h1 a2 h2 a3 h3 a4 h4 a5 h5 a6 h6 a7 h7 a8 h8 hc x0 x1 x2 x3 x4 xo6 xo7 = k0_pay1 (k0_pay4 x0 x1 x2 x3 x4) xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h8.read_unread,
    View.ld_unit_zero (S := S10000x128) hz, View.ld_unit_zero (S := S128x32) hz, View.ld_unit_zero (S := S1x32) hz, View.ld_unit_zero (S := S32x32) hz]

end Cert.KernelIdeal.KV.R0

end
-- ==== Proof.KReg0Arith.lean ====
/-
  The first kernel's arithmetic on the extended reals, entry by entry.

  The block of dense layers at entry (p, q) is max (max (x · Wa + ba, 0) · Wb + bb, 0) read at that entry: a matrix
  product accumulated into zero is the plain sum over the shared coordinate, a bias row repeated down the rows reads
  its entry q, and rounding to a shorter float format is the identity on the extended reals. A one-row output after a
  point is the row it held before plus, in column q, the sum over the block's 10000 rows of column q of the block
  (or of its squares); the reset rows hold the zero word, which is 0.
-/
import proofs.«153798_j29678224015468_1_alg».proof.Proof.Gen.KernelIdeal.Skeleton
import proofs.«153798_j29678224015468_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV.R0

open Cert.KernelIdeal Cert.KernelIdeal.Gen Idealize.ShloMosaic Idealize.ShloMosaic.TcCoe Idealize.SL.Sem
open Idealize.ShloMosaic.Pipeline (Dat)
open Cert.Gin
open Idealize.ShloMosaic.ValueIdx

/-! ## The body's arithmetic read at an entry, on the extended reals -/

theorem matmul_in_apply_lhs0 (i : S10000x32.Idx) (k : dot_S10000x128_S128x32_S10000x32_1_0_0_1_n_n.contr.Idx) : (dot_S10000x128_S128x32_S10000x32_1_0_0_1_n_n.lhsIdx i k 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem matmul_in_apply_rhs1 (i : S10000x32.Idx) (k : dot_S10000x128_S128x32_S10000x32_1_0_0_1_n_n.contr.Idx) : (dot_S10000x128_S128x32_S10000x32_1_0_0_1_n_n.rhsIdx i k 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Entry (p, q) of the product of a [10000, 128] block with a [128, 32] matrix, accumulated into zero: the sum over the 128 shared coordinates. -/
theorem matmul_in_apply (x : FVec Ideal S10000x128 .bf16) (w : FVec Ideal S128x32 .bf16) (p : Fin 10000) (q : Fin 32) :
    matmul dot_S10000x128_S128x32_S10000x32_1_0_0_1_n_n none x w (constant (F := Ideal) S10000x32 .f32 0x00000000#32) (ix2 p q)
      = ∑ j : Fin 128, x (ix2 p j) * w (ix2 j q) := by
  refine (Ideal.matmul_constant_zero_apply dot_S10000x128_S128x32_S10000x32_1_0_0_1_n_n none x w (ix2 p q)).trans ?_
  rw [← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q) ((contrEquiv1 dot_S10000x128_S128x32_S10000x32_1_0_0_1_n_n 128 rfl rfl).symm k) = ix2 p k := funext fun a => Fin.ext (by
    match a with
    | ⟨0, _⟩ => exact matmul_in_apply_lhs0 _ _
    | ⟨1, _⟩ => exact (dot_S10000x128_S128x32_S10000x32_1_0_0_1_n_n.lhsIdx_val_of_single rfl (ix2 p q) _).trans hk)
  have er : dot_S10000x128_S128x32_S10000x32_1_0_0_1_n_n.rhsIdx (ix2 p q) ((contrEquiv1 dot_S10000x128_S128x32_S10000x32_1_0_0_1_n_n 128 rfl rfl).symm k) = ix2 k q := funext fun a => Fin.ext (by
    match a with
    | ⟨0, _⟩ => exact (dot_S10000x128_S128x32_S10000x32_1_0_0_1_n_n.rhsIdx_val_of_single rfl (ix2 p q) _).trans hk
    | ⟨1, _⟩ => exact matmul_in_apply_rhs1 _ _)
  rw [el, er]

theorem matmul_hid_apply_lhs0 (i : S10000x32.Idx) (k : dot_S10000x32_S32x32_S10000x32_1_0_0_1_n_n.contr.Idx) : (dot_S10000x32_S32x32_S10000x32_1_0_0_1_n_n.lhsIdx i k 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem matmul_hid_apply_rhs1 (i : S10000x32.Idx) (k : dot_S10000x32_S32x32_S10000x32_1_0_0_1_n_n.contr.Idx) : (dot_S10000x32_S32x32_S10000x32_1_0_0_1_n_n.rhsIdx i k 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- Entry (p, q) of the product of a [10000, 32] block with a [32, 32] matrix, accumulated into zero: the sum over the 32 shared coordinates. -/
theorem matmul_hid_apply (x : FVec Ideal S10000x32 .bf16) (w : FVec Ideal S32x32 .bf16) (p : Fin 10000) (q : Fin 32) :
    matmul dot_S10000x32_S32x32_S10000x32_1_0_0_1_n_n none x w (constant (F := Ideal) S10000x32 .f32 0x00000000#32) (ix2 p q)
      = ∑ j : Fin 32, x (ix2 p j) * w (ix2 j q) := by
  refine (Ideal.matmul_constant_zero_apply dot_S10000x32_S32x32_S10000x32_1_0_0_1_n_n none x w (ix2 p q)).trans ?_
  rw [← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have el : dot_S10000x32_S32x32_S10000x32_1_0_0_1_n_n.lhsIdx (ix2 p q) ((contrEquiv1 dot_S10000x32_S32x32_S10000x32_1_0_0_1_n_n 32 rfl rfl).symm k) = ix2 p k := funext fun a => Fin.ext (by
    match a with
    | ⟨0, _⟩ => exact matmul_hid_apply_lhs0 _ _
    | ⟨1, _⟩ => exact (dot_S10000x32_S32x32_S10000x32_1_0_0_1_n_n.lhsIdx_val_of_single rfl (ix2 p q) _).trans hk)
  have er : dot_S10000x32_S32x32_S10000x32_1_0_0_1_n_n.rhsIdx (ix2 p q) ((contrEquiv1 dot_S10000x32_S32x32_S10000x32_1_0_0_1_n_n 32 rfl rfl).symm k) = ix2 k q := funext fun a => Fin.ext (by
    match a with
    | ⟨0, _⟩ => exact (dot_S10000x32_S32x32_S10000x32_1_0_0_1_n_n.rhsIdx_val_of_single rfl (ix2 p q) _).trans hk
    | ⟨1, _⟩ => exact matmul_hid_apply_rhs1 _ _)
  rw [el, er]

/-- A bias row repeated down the 10000 rows of a block reads, at (p, q), the row's entry q. -/
theorem bias_apply (b : Vec Ideal S1x32 .f32) (p : Fin 10000) (q : Fin 32) :
    broadcastTo S10000x32 (shapeCast S1x32 b shapeCasts_S1x32_S1x32) broadcasts_S1x32_S10000x32 (ix2 p q) = b (ix2 (0 : Fin 1) q) :=
  (broadcastTo_1b_ab_apply _ broadcasts_S1x32_S10000x32 p q).trans (congrFun (shapeCast_self b shapeCasts_S1x32_S1x32) _)

/-- One dense layer with its rectifier, read at an entry: the matrix product's sum, the bias, the maximum with zero. -/
theorem layer_in_apply (x0 : Vec Ideal S10000x128 .f32) (x1 : Vec Ideal S128x32 .f32) (x2 : Vec Ideal S1x32 .f32) (p : Fin 10000) (k : Fin 32) :
    (maximumf (addf (matmul dot_S10000x128_S128x32_S10000x32_1_0_0_1_n_n none (truncf .bf16 (shapeCast S10000x128 x0 shapeCasts_S10000x128_S10000x128) bitsLt_bf16_f32)
        (truncf .bf16 x1 bitsLt_bf16_f32) (constant (F := Ideal) S10000x32 .f32 0x00000000#32))
      (broadcastTo S10000x32 (shapeCast S1x32 x2 shapeCasts_S1x32_S1x32) broadcasts_S1x32_S10000x32))
      (broadcast S10000x32 (FloatOps.ofBits .f32 0x00000000#32)) : FVec Ideal S10000x32 .f32) (ix2 p k)
      = max ((∑ j : Fin 128, x0 (ix2 p j) * x1 (ix2 j k)) + x2 (ix2 (0 : Fin 1) k)) zeroW :=
  congrArg₂ max (congrArg₂ (· + ·) ((matmul_in_apply _ _ p k).trans (by rw [shapeCast_self]; rfl)) (bias_apply x2 p k)) rfl

theorem layer_hid_apply (y : FVec Ideal S10000x32 .f32) (x3 : Vec Ideal S32x32 .f32) (x4 : Vec Ideal S1x32 .f32) (p : Fin 10000) (q : Fin 32) :
    (maximumf (addf (matmul dot_S10000x32_S32x32_S10000x32_1_0_0_1_n_n none (truncf .bf16 y bitsLt_bf16_f32)
        (truncf .bf16 x3 bitsLt_bf16_f32) (constant (F := Ideal) S10000x32 .f32 0x00000000#32))
      (broadcastTo S10000x32 (shapeCast S1x32 x4 shapeCasts_S1x32_S1x32) broadcasts_S1x32_S10000x32))
      (broadcast S10000x32 (FloatOps.ofBits .f32 0x00000000#32)) : FVec Ideal S10000x32 .f32) (ix2 p q)
      = max ((∑ k : Fin 32, y (ix2 p k) * x3 (ix2 k q)) + x4 (ix2 (0 : Fin 1) q)) zeroW :=
  congrArg₂ max (congrArg₂ (· + ·) (matmul_hid_apply _ _ p q) (bias_apply x4 p q)) rfl

/-- The block of the first pair of dense layers, read at an entry. -/
theorem pay4_apply (x0 : Vec Ideal S10000x128 .f32) (x1 : Vec Ideal S128x32 .f32) (x2 : Vec Ideal S1x32 .f32) (x3 : Vec Ideal S32x32 .f32) (x4 : Vec Ideal S1x32 .f32) (p : Fin 10000) (q : Fin 32) :
    k0_pay4 (F := Ideal) x0 x1 x2 x3 x4 (ix2 p q)
      = max ((∑ k : Fin 32, max ((∑ j : Fin 128, x0 (ix2 p j) * x1 (ix2 j k)) + x2 (ix2 (0 : Fin 1) k)) zeroW * x3 (ix2 k q)) + x4 (ix2 (0 : Fin 1) q)) zeroW := by
  unfold k0_pay4
  refine (layer_hid_apply _ x3 x4 p q).trans ?_
  refine congrArg₂ max (congrArg₂ (· + ·) (Finset.sum_congr rfl fun k _ => congrArg₂ (· * ·) (layer_in_apply x0 x1 x2 p k) rfl) rfl) rfl

/-- The sum over the 10000 rows of a block, laid out as one row: entry (0, q) is the sum of column q. -/
theorem laneSum_apply (v : FVec Ideal S10000x32 .f32) (hφ : FKind.Formats .f32)
    (hacc : (0x00000000#32 : BitVec 32) = FKind.add.neutral .f32 hφ) (q : Fin 32) :
    shapeCast S1x32 (multiReduction .add [0] S32 v 0x00000000#32 reduces_S10000x32_S32 hφ hacc) shapeCasts_S32_S1x32 (ix2 (0 : Fin 1) q)
      = ∑ p : Fin 10000, v (ix2 p q) :=
  (shapeCast_a_1a_apply _ shapeCasts_S32_S1x32 0 q).trans
    ((Ideal.multiReduction_add_single v 0x00000000#32 reduces_S10000x32_S32 hφ hacc (ix1 q)).trans
      (Finset.sum_congr rfl fun p _ => congrArg v (funext fun a => Fin.ext (by
        match a with
        | ⟨0, _⟩ => rfl
        | ⟨1, _⟩ => rfl))))

/-- The sum row after a point: what it held before plus the column sums of the point's block of dense layers. -/
theorem pay5_apply (x0 : Vec Ideal S10000x128 .f32) (x1 : Vec Ideal S128x32 .f32) (x2 : Vec Ideal S1x32 .f32) (x3 : Vec Ideal S32x32 .f32) (x4 : Vec Ideal S1x32 .f32)
    (acc : Vec Ideal S1x32 .f32) (q : Fin 32) :
    k0_pay5 (F := Ideal) x0 x1 x2 x3 x4 acc (ix2 (0 : Fin 1) q)
      = acc (ix2 (0 : Fin 1) q) + ∑ p : Fin 10000, k0_pay4 (F := Ideal) x0 x1 x2 x3 x4 (ix2 p q) := by
  unfold k0_pay5
  exact congrArg₂ (· + ·) (congrFun (shapeCast_self acc shapeCasts_S1x32_S1x32) _) (laneSum_apply _ _ _ q)

/-- The row of sums of squares after a point: what it held before plus the column sums of the block's squares. -/
theorem pay1_apply (z : FVec Ideal S10000x32 .f32) (acc : Vec Ideal S1x32 .f32) (q : Fin 32) :
    k0_pay1 (F := Ideal) z acc (ix2 (0 : Fin 1) q) = acc (ix2 (0 : Fin 1) q) + ∑ p : Fin 10000, z (ix2 p q) * z (ix2 p q) := by
  unfold k0_pay1
  exact congrArg₂ (· + ·) (congrFun (shapeCast_self acc shapeCasts_S1x32_S1x32) _) (laneSum_apply (mulf z z) _ _ q)

/-- The two reset rows hold the zero word, which is 0. -/
theorem pay2_apply (i : S1x32.Idx) : k0_pay2 (F := Ideal) i = 0 := Ideal.ofBits_zero_f32
theorem pay3_apply (i : S1x32.Idx) : k0_pay3 (F := Ideal) i = 0 := Ideal.ofBits_zero_f32

end Cert.KernelIdeal.KV.R0

end
-- ==== Proof.LibBlockSum.lean ====
/-
  Regrouping a sum over `N * B` consecutive rows into `N` blocks of `B` rows, and a running sum as a finite sum.
  Both hold in any additive commutative monoid: they move and bracket terms and never cancel or distribute, so on the
  extended reals they need no finiteness.
-/
import Mathlib.Algebra.BigOperators.Fin
import Mathlib.Logic.Equiv.Fin.Basic

open scoped BigOperators

namespace Cert.Lib

/-- Row `k` of block `t`, counted from the start, is a row of the whole. -/
theorem blk_lt {N B : Nat} (t : Fin N) (k : Fin B) : t.val * B + k.val < N * B :=
  calc t.val * B + k.val < t.val * B + B := Nat.add_lt_add_left k.isLt _
    _ = (t.val + 1) * B := (Nat.succ_mul _ _).symm
    _ ≤ N * B := Nat.mul_le_mul_right _ t.isLt

/-- A sum over `n = N * B` rows is the sum over the `N` blocks of each block's sum over its `B` rows, row `k` of
    block `t` being row `t * B + k` of the whole. -/
theorem sum_blocks {M : Type*} [AddCommMonoid M] {n : Nat} (N B : Nat) (h : n = N * B) (f : Fin n → M) :
    ∑ r : Fin n, f r = ∑ t : Fin N, ∑ k : Fin B, f ⟨t.val * B + k.val, lt_of_lt_of_eq (blk_lt t k) h.symm⟩ := by
  subst h
  rw [← Fintype.sum_prod_type (f := fun p : Fin N × Fin B => f ⟨p.1.val * B + p.2.val, blk_lt p.1 p.2⟩)]
  refine (Fintype.sum_equiv finProdFinEquiv _ _ fun p => congrArg f (Fin.ext ?_)).symm
  show p.1.val * B + p.2.val = p.2.val + B * p.1.val
  rw [Nat.mul_comm, Nat.add_comm]

/-- The running sum that starts from `0 + s 0` and adds `s (n + 1)` at step `n + 1`. -/
def chain {M : Type*} [AddCommMonoid M] (s : ℕ → M) : ℕ → M
  | 0 => 0 + s 0
  | n + 1 => chain s n + s (n + 1)

/-- After step `n` the running sum is the sum of the first `n + 1` terms. -/
theorem chain_eq_sum {M : Type*} [AddCommMonoid M] (s : ℕ → M) (n : ℕ) :
    chain s n = ∑ t ∈ Finset.range (n + 1), s t := by
  induction n with
  | zero => simp [chain]
  | succ n ih => rw [chain, ih, Finset.sum_range_succ (n := n + 1)]

/-- The same, with the terms indexed by the `N = n + 1` blocks. -/
theorem chain_eq_sum_fin {M : Type*} [AddCommMonoid M] (s : ℕ → M) (N : ℕ) (hN : 0 < N) :
    chain s (N - 1) = ∑ t : Fin N, s t.val := by
  rw [chain_eq_sum, Nat.sub_add_cancel hN, Finset.sum_range]

end Cert.Lib
-- ==== Proof.KReg0.lean ====
/-
  The first kernel region as whole-array functions of the arrays it finds.

  The region's grid has five points; point t works on rows 10000 t … 10000 t + 9999 of the row-tiled arrays and on
  the whole of the others. Entry (p, q) of the dense layers of a block depends on row p of the block only, so the
  block of point t is rows 10000 t … of the dense layers of the whole array, and the five blocks written back tile the
  output. The two one-row outputs stay in their buffers from point to point: after point n they hold the column sums
  (of the entries, of their squares) over the blocks 0 … n, by induction on n; they are written back once, after the
  last point, when they hold the sums over all five blocks, that is over all 50000 rows. Regrouping a sum over
  50000 rows into five blocks of 10000 only moves and brackets terms, so it holds for all extended reals.
-/
import proofs.«153798_j29678224015468_1_alg».proof.Proof.KReg0Pieces
import proofs.«153798_j29678224015468_1_alg».proof.Proof.KReg0Arith
import proofs.«153798_j29678224015468_1_alg».proof.Proof.LibBlockSum

noncomputable section

namespace Cert.KernelIdeal.KV.R0

open Cert.KernelIdeal Cert.KernelIdeal.Gen Idealize.ShloMosaic Idealize.ShloMosaic.TcCoe Idealize.SL.Sem
open Idealize.ShloMosaic.Pipeline (Dat)
open Cert.Gin
open Idealize.ShloMosaic.ValueIdx

/-! ## The windows' blocks, read off the arrays the region finds -/

section Blocks
variable (V : (c : Dev nD) → (b : Ref sig .tc) → Buf (Elt Ideal) ((c : Thread nD τ).loc b))

/-- The printed index maps over the grid: the two row-tiled windows are at block (t, 0) at point t, every other
    window at block (0, 0). -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem pt_lt (t : Fin cfg0.N) : t.val < 5 := lt_of_lt_of_eq t.isLt N_0

/-- Row p of the block at point t is row 10000 t + p of the whole array. -/
def blkRow (t : Fin cfg0.N) (p : Fin 10000) : Fin 50000 :=
  ⟨t.val * 10000 + p.val, by have := pt_lt t; have := p.isLt; omega⟩

theorem blk0_read (c : Dev nD) (t : Fin cfg0.N) (p : Fin 10000) (j : Fin 128) :
    (iblk0 V c 0 t : Vec Ideal S10000x128 .f32) (ix2 p j) = (V c main_v14 : Mat 50000 128) (ix2 (blkRow t p) j) := by
  show V c main_v14 (((cfg0.win 0).blk t).view.emb (ix2 p j)) = _
  refine congrArg (V c main_v14) (funext fun a => Fin.ext ?_)
  obtain ⟨e0, e1, -⟩ := idx_facts t
  match a with
  | ⟨0, _⟩ => show win0_0.index t (0 : Fin 2) * 10000 + 1 * p.val = t.val * 10000 + p.val; rw [e0]; omega
  | ⟨1, _⟩ => show win0_0.index t (1 : Fin 2) * 128 + 1 * j.val = j.val; rw [e1]; omega

theorem blk1_eq (c : Dev nD) (t : Fin cfg0.N) : (iblk0 V c 1 t : Vec Ideal S128x32 .f32) = V c main_arg3 := funext fun y => by
  show V c main_arg3 (((cfg0.win 1).blk t).view.emb y) = V c main_arg3 y
  refine congrArg (V c main_arg3) (funext fun a => Fin.ext ?_)
  obtain ⟨-, -, -, -, e0, e1, -⟩ := idx_facts t
  match a with
  | ⟨0, _⟩ => show win0_1.index t (0 : Fin 2) * 128 + 1 * (y 0).val = (y 0).val; rw [e0]; omega
  | ⟨1, _⟩ => show win0_1.index t (1 : Fin 2) * 32 + 1 * (y 1).val = (y 1).val; rw [e1]; omega

theorem blk2_eq (c : Dev nD) (t : Fin cfg0.N) : (iblk0 V c 2 t : Vec Ideal S1x32 .f32) = V c main_v15 := funext fun y => by
  show V c main_v15 (((cfg0.win 2).blk t).view.emb y) = V c main_v15 y
  refine congrArg (V c main_v15) (funext fun a => Fin.ext ?_)
  obtain ⟨-, -, -, -, -, -, e0, e1, -⟩ := idx_facts t
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

theorem blk3_eq (c : Dev nD) (t : Fin cfg0.N) : (iblk0 V c 3 t : Vec Ideal S32x32 .f32) = V c main_arg5 := funext fun y => by
  show V c main_arg5 (((cfg0.win 3).blk t).view.emb y) = V c main_arg5 y
  refine congrArg (V c main_arg5) (funext fun a => Fin.ext ?_)
  obtain ⟨-, -, -, -, -, -, -, -, e0, e1, -⟩ := idx_facts t
  match a with
  | ⟨0, _⟩ => show win0_3.index t (0 : Fin 2) * 32 + 1 * (y 0).val = (y 0).val; rw [e0]; omega
  | ⟨1, _⟩ => show win0_3.index t (1 : Fin 2) * 32 + 1 * (y 1).val = (y 1).val; rw [e1]; omega

theorem blk4_eq (c : Dev nD) (t : Fin cfg0.N) : (iblk0 V c 4 t : Vec Ideal S1x32 .f32) = V c main_v16 := funext fun y => by
  show V c main_v16 (((cfg0.win 4).blk t).view.emb y) = V c main_v16 y
  refine congrArg (V c main_v16) (funext fun a => Fin.ext ?_)
  obtain ⟨-, -, -, -, -, -, -, -, -, -, e0, e1, -⟩ := idx_facts t
  match a with
  | ⟨0, _⟩ => show win0_4.index t (0 : Fin 2) * 1 + 1 * (y 0).val = (y 0).val; rw [e0]; omega
  | ⟨1, _⟩ => show win0_4.index t (1 : Fin 2) * 32 + 1 * (y 1).val = (y 1).val; rw [e1]; omega

end Blocks

/-! ## The three outputs after the region -/

section Region
variable (V : (c : Dev nD) → (b : Ref sig .tc) → Buf (Elt Ideal) ((c : Thread nD τ).loc b))

/-- The first pair of dense layers of the arrays the region finds. -/
abbrev Z (c : Dev nD) : Mat 50000 32 :=
  mlp1 (V c main_v14) (V c main_arg3) (V c main_v15) (V c main_arg5) (V c main_v16)

/-- An entry of the dense layers of a block depends on one row of the block's first operand only: where that row is
    row r of an array, it is the entry of the dense layers of the array at row r. -/
theorem pay4_eq_mlp1At (x0 : Vec Ideal S10000x128 .f32) (x1 : Vec Ideal S128x32 .f32) (x2 : Vec Ideal S1x32 .f32) (x3 : Vec Ideal S32x32 .f32) (x4 : Vec Ideal S1x32 .f32)
    (h : Mat 50000 128) (r : Fin 50000) (p : Fin 10000) (q : Fin 32) (e0 : ∀ j : Fin 128, x0 (ix2 p j) = h (ix2 r j)) :
    k0_pay4 (F := Ideal) x0 x1 x2 x3 x4 (ix2 p q) = mlp1At h x1 x2 x3 x4 r q := by
  rw [pay4_apply]
  unfold mlp1At
  simp only [e0]

/-- Entry (p, q) of the dense layers of the blocks at point t is entry (10000 t + p, q) of the dense layers of the arrays. -/
theorem h1_block (c : Dev nD) (t : Fin cfg0.N) (p : Fin 10000) (q : Fin 32) :
    k0_pay4 (F := Ideal) (iblk0 V c 0 t) (iblk0 V c 1 t) (iblk0 V c 2 t) (iblk0 V c 3 t) (iblk0 V c 4 t) (ix2 p q) = Z V c (ix2 (blkRow t p) q) := by
  refine (pay4_eq_mlp1At (iblk0 V c 0 t) (iblk0 V c 1 t) (iblk0 V c 2 t) (iblk0 V c 3 t) (iblk0 V c 4 t) (V c main_v14) (blkRow t p) p q (blk0_read V c t p)).trans ?_
  rw [blk1_eq V c t, blk2_eq V c t, blk3_eq V c t, blk4_eq V c t]
  rfl

/-- After every point the row-tiled output's buffer holds the dense layers of the point's blocks. -/
theorem outs5 (c : Dev nD) (t : Fin cfg0.N) : (outsAt0 V c t.val t.isLt).1 = k0_pay4 (iblk0 V c 0 t) (iblk0 V c 1 t) (iblk0 V c 2 t) (iblk0 V c 3 t) (iblk0 V c 4 t) := by
  by_cases h0 : t.val % 5 = 0
  · rw [outsAt0_A V c t h0]
    dsimp only
    exact out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)
  · rw [outsAt0_B V c t h0]
    dsimp only
    exact out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- What point t writes back to the row-tiled output is block t of the dense layers of the arrays. -/
theorem flushed5_eq (c : Dev nD) (t : Fin cfg0.N) :
    (dat0 V c).flushed 5 t = ((cfg0.win 5).blk t).view.read (Elt Ideal) (Z V c) := by
  show (cfg0.win 5).cut (grid0.coords t) ((dat0 V c).after 5 t) = _
  rw [after0_5, outs5 V c t]
  funext y
  obtain ⟨p, q, rfl⟩ : ∃ (p : Fin 10000) (q : Fin 32), y = ix2 p q := ⟨y 0, y 1, eq_ix2 y⟩
  show k0_pay4 (F := Ideal) (iblk0 V c 0 t) (iblk0 V c 1 t) (iblk0 V c 2 t) (iblk0 V c 3 t) (iblk0 V c 4 t) (ix2 p q) = Z V c (((cfg0.win 5).blk t).view.emb (ix2 p q))
  rw [h1_block V c t p q]
  refine congrArg (Z V c) (funext fun a => Fin.ext ?_)
  obtain ⟨-, -, e0, e1, -⟩ := idx_facts t
  match a with
  | ⟨0, _⟩ => show t.val * 10000 + p.val = win0_5.index t (0 : Fin 2) * 10000 + 1 * p.val; rw [e0]; omega
  | ⟨1, _⟩ => show q.val = win0_5.index t (1 : Fin 2) * 32 + 1 * q.val; rw [e1]; omega

/-- Row r of the output lies in the block of point r / 10000. -/
theorem cover5 (i : S50000x32.Idx) : ∃ t : Fin cfg0.N, (cfg0.win 5).flush t = true ∧ i ∈ ((cfg0.win 5).blk t).view.set := by
  have hi0 : (i 0).val < 50000 := (i 0).isLt
  have hi1 : (i 1).val < 32 := (i 1).isLt
  have hN : cfg0.N = 5 := N_0
  refine ⟨⟨(i 0).val / 10000, by rw [hN]; omega⟩, flush0_5 _, ?_⟩
  generalize ht : (⟨(i 0).val / 10000, by rw [hN]; omega⟩ : Fin cfg0.N) = t
  have htv : t.val = (i 0).val / 10000 := by rw [← ht]
  show i ∈ ((View.whole main_v17_0).slice (win0_5.rect t)).set
  rw [View.set_slice_whole, Rect.mem_set_unit]
  obtain ⟨-, -, e0, e1, -⟩ := idx_facts t
  intro a
  match a with
  | ⟨0, _⟩ => show win0_5.index t (0 : Fin 2) * 10000 ≤ (i 0).val ∧ (i 0).val < win0_5.index t (0 : Fin 2) * 10000 + 10000; rw [e0]; omega
  | ⟨1, _⟩ => show win0_5.index t (1 : Fin 2) * 32 ≤ (i 1).val ∧ (i 1).val < win0_5.index t (1 : Fin 2) * 32 + 32; rw [e1]; omega

/-- The row-tiled output after the region: every row lies in one point's block, and each point writes its block of the dense layers of the arrays. -/
theorem arr5_eq (c : Dev nD) : ((dat0 (F := Ideal) V c).arrAt 5 cfg0.N : Mat 50000 32) = Z V c :=
  (dat0 V c).arrAt_eq_of_cover 5 (Z V c) (fun t _ => flushed5_eq V c t) cover5

end Region

/-! ## The two accumulated rows -/

/-- The part of a sum over the 50000 rows that the block of point t contributes (nothing past the fifth block). -/
def blockSum (g : Fin 50000 → EReal) (t : ℕ) : EReal :=
  if h : t < 5 then ∑ k : Fin 10000, g ⟨t * 10000 + k.val, by have := k.isLt; omega⟩ else 0

/-- The five blocks' parts add up to the sum over all rows: only a regrouping, valid for any extended reals. -/
theorem sum_blockSum (g : Fin 50000 → EReal) : ∑ t ∈ Finset.range 5, blockSum g t = ∑ r : Fin 50000, g r := by
  rw [Cert.Lib.sum_blocks 5 10000 rfl g, Finset.sum_range]
  refine Finset.sum_congr rfl fun t _ => ?_
  unfold blockSum
  rw [dif_pos t.isLt]

section Accumulators
variable (V : (c : Dev nD) → (b : Ref sig .tc) → Buf (Elt Ideal) ((c : Thread nD τ).loc b))

/-- The sum row after the first point: the zero row plus the first block's column sums. -/
theorem outs6_A (c : Dev nD) (t : Fin cfg0.N) (h0 : t.val % 5 = 0) :
    (outsAt0 V c t.val t.isLt).2.1 = k0_pay5 (iblk0 V c 0 t) (iblk0 V c 1 t) (iblk0 V c 2 t) (iblk0 V c 3 t) (iblk0 V c 4 t) (k0_pay2 (F := Ideal)) := by
  rw [outsAt0_A V c t h0]
  dsimp only
  exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)

/-- The sum row after a later point: the row after the point before plus this block's column sums. -/
theorem outs6_B (c : Dev nD) (t : Fin cfg0.N) (h0 : ¬t.val % 5 = 0) :
    (outsAt0 V c t.val t.isLt).2.1 = k0_pay5 (iblk0 V c 0 t) (iblk0 V c 1 t) (iblk0 V c 2 t) (iblk0 V c 3 t) (iblk0 V c 4 t) (outsAt0 V c (t.val - 1) (Nat.lt_of_le_of_lt (Nat.sub_le _ _) t.isLt)).2.1 := by
  rw [outsAt0_B V c t h0]
  dsimp only
  exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

theorem outs7_A (c : Dev nD) (t : Fin cfg0.N) (h0 : t.val % 5 = 0) :
    (outsAt0 V c t.val t.isLt).2.2 = k0_pay1 (k0_pay4 (iblk0 V c 0 t) (iblk0 V c 1 t) (iblk0 V c 2 t) (iblk0 V c 3 t) (iblk0 V c 4 t)) (k0_pay3 (F := Ideal)) := by
  rw [outsAt0_A V c t h0]
  dsimp only
  exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)

theorem outs7_B (c : Dev nD) (t : Fin cfg0.N) (h0 : ¬t.val % 5 = 0) :
    (outsAt0 V c t.val t.isLt).2.2 = k0_pay1 (k0_pay4 (iblk0 V c 0 t) (iblk0 V c 1 t) (iblk0 V c 2 t) (iblk0 V c 3 t) (iblk0 V c 4 t)) (outsAt0 V c (t.val - 1) (Nat.lt_of_le_of_lt (Nat.sub_le _ _) t.isLt)).2.2 := by
  rw [outsAt0_B V c t h0]
  dsimp only
  exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2

/-- The column sums of the block of dense layers at point t are block t's part of the column sums of the whole. -/
theorem blockSum_h1 (c : Dev nD) (t : Fin cfg0.N) (q : Fin 32) :
    ∑ p : Fin 10000, k0_pay4 (F := Ideal) (iblk0 V c 0 t) (iblk0 V c 1 t) (iblk0 V c 2 t) (iblk0 V c 3 t) (iblk0 V c 4 t) (ix2 p q) = blockSum (fun r => Z V c (ix2 r q)) t.val := by
  unfold blockSum
  rw [dif_pos (pt_lt t)]
  exact Finset.sum_congr rfl fun p _ => h1_block V c t p q

theorem blockSum_h1sq (c : Dev nD) (t : Fin cfg0.N) (q : Fin 32) :
    ∑ p : Fin 10000, k0_pay4 (F := Ideal) (iblk0 V c 0 t) (iblk0 V c 1 t) (iblk0 V c 2 t) (iblk0 V c 3 t) (iblk0 V c 4 t) (ix2 p q) * k0_pay4 (F := Ideal) (iblk0 V c 0 t) (iblk0 V c 1 t) (iblk0 V c 2 t) (iblk0 V c 3 t) (iblk0 V c 4 t) (ix2 p q)
      = blockSum (fun r => Z V c (ix2 r q) * Z V c (ix2 r q)) t.val := by
  unfold blockSum
  rw [dif_pos (pt_lt t)]
  exact Finset.sum_congr rfl fun p _ => by rw [h1_block V c t p q]; rfl

/-- After point n the sum row holds the parts of the blocks 0 … n: by induction on the point. -/
theorem acc6 (c : Dev nD) : ∀ (n : ℕ) (h : n < cfg0.N) (q : Fin 32),
    (outsAt0 V c n h).2.1 (ix2 (0 : Fin 1) q) = ∑ t ∈ Finset.range (n + 1), blockSum (fun r => Z V c (ix2 r q)) t
  | 0, h, q => by
    rw [outs6_A V c ⟨0, h⟩ rfl, pay5_apply, pay2_apply, zero_add, blockSum_h1 V c ⟨0, h⟩ q, Finset.sum_range_one]
  | n + 1, h, q => by
    have hB : ¬(⟨n + 1, h⟩ : Fin cfg0.N).val % 5 = 0 := by have := pt_lt ⟨n + 1, h⟩; dsimp only at this ⊢; omega
    rw [outs6_B V c ⟨n + 1, h⟩ hB, pay5_apply, blockSum_h1 V c ⟨n + 1, h⟩ q, Finset.sum_range_succ _ (n + 1)]
    exact congrArg (· + _) (acc6 c n _ q)

/-- After point n the row of sums of squares holds the parts of the blocks 0 … n. -/
theorem acc7 (c : Dev nD) : ∀ (n : ℕ) (h : n < cfg0.N) (q : Fin 32),
    (outsAt0 V c n h).2.2 (ix2 (0 : Fin 1) q)
      = ∑ t ∈ Finset.range (n + 1), blockSum (fun r => Z V c (ix2 r q) * Z V c (ix2 r q)) t
  | 0, h, q => by
    rw [outs7_A V c ⟨0, h⟩ rfl, pay1_apply, pay3_apply, zero_add, blockSum_h1sq V c ⟨0, h⟩ q, Finset.sum_range_one]
  | n + 1, h, q => by
    have hB : ¬(⟨n + 1, h⟩ : Fin cfg0.N).val % 5 = 0 := by have := pt_lt ⟨n + 1, h⟩; dsimp only at this ⊢; omega
    rw [outs7_B V c ⟨n + 1, h⟩ hB, pay1_apply, blockSum_h1sq V c ⟨n + 1, h⟩ q, Finset.sum_range_succ _ (n + 1)]
    exact congrArg (· + _) (acc7 c n _ q)

end Accumulators

/-! ## The two rows after the region: written back once, after the last point -/

/-- Entry (0, q) of the column sums is the sum of column q. -/
theorem colSum_row (z : Mat 50000 32) (q : Fin 32) : colSum z (ix2 (0 : Fin 1) q) = ∑ r : Fin 50000, z (ix2 r q) := rfl
theorem colSumSq_row (z : Mat 50000 32) (q : Fin 32) :
    colSumSq z (ix2 (0 : Fin 1) q) = ∑ r : Fin 50000, z (ix2 r q) * z (ix2 r q) := rfl

section Rows
variable (V : (c : Dev nD) → (b : Ref sig .tc) → Buf (Elt Ideal) ((c : Thread nD τ).loc b))

/-- Block (0, 0) of the sum row is the row itself: reading the block of any row G at (0, q) reads G at (0, q). -/
theorem read_row6 (t : Fin cfg0.N) (G : Mat 1 32) (q : Fin 32) :
    ((cfg0.win 6).blk t).view.read (Elt Ideal) G (ix2 (0 : Fin 1) q) = G (ix2 (0 : Fin 1) q) := by
  show G (((cfg0.win 6).blk t).view.emb (ix2 (0 : Fin 1) q)) = G (ix2 (0 : Fin 1) q)
  refine congrArg G (funext fun a => Fin.ext ?_)
  obtain ⟨-, -, -, -, -, -, -, -, -, -, -, -, e0, e1, -⟩ := idx_facts t
  match a with
  | ⟨0, _⟩ => show win0_6.index t (0 : Fin 2) * 1 + 1 * 0 = 0; rw [e0]
  | ⟨1, _⟩ => show win0_6.index t (1 : Fin 2) * 32 + 1 * q.val = q.val; rw [e1]; omega

/-- The one write-back of the sum row, after the last point, writes the sum over all five blocks. -/
theorem flushed6_eq (c : Dev nD) (t : Fin cfg0.N) (hf : (cfg0.win 6).flush t = true) :
    (dat0 V c).flushed 6 t = ((cfg0.win 6).blk t).view.read (Elt Ideal) (colSum (Z V c)) := by
  have h4 : t.val = 4 := by have := (flush0_6 t).mp hf; have := pt_lt t; omega
  show (cfg0.win 6).cut (grid0.coords t) ((dat0 V c).after 6 t) = _
  rw [after0_6]
  funext y
  obtain ⟨u, q, rfl⟩ : ∃ (u : Fin 1) (q : Fin 32), y = ix2 u q := ⟨y 0, y 1, eq_ix2 y⟩
  obtain rfl : u = 0 := Subsingleton.elim _ _
  refine Eq.trans ?_ (read_row6 t (colSum (Z V c)) q).symm
  refine Eq.trans ?_ (colSum_row (Z V c) q).symm
  show (outsAt0 V c t.val t.isLt).2.1 (ix2 (0 : Fin 1) q) = _
  rw [acc6 V c t.val t.isLt q, h4]
  exact sum_blockSum (fun r => Z V c (ix2 r q))

/-- The last point's block is the whole row. -/
theorem cover6 (i : S1x32.Idx) : ∃ t : Fin cfg0.N, (cfg0.win 6).flush t = true ∧ i ∈ ((cfg0.win 6).blk t).view.set := by
  have hi0 : (i 0).val < 1 := (i 0).isLt
  have hi1 : (i 1).val < 32 := (i 1).isLt
  have hN : cfg0.N = 5 := N_0
  refine ⟨⟨4, by rw [hN]; omega⟩, (flush0_6 _).mpr rfl, ?_⟩
  generalize (⟨4, by rw [hN]; omega⟩ : Fin cfg0.N) = t
  show i ∈ ((View.whole main_v17_1).slice (win0_6.rect t)).set
  rw [View.set_slice_whole, Rect.mem_set_unit]
  obtain ⟨-, -, -, -, -, -, -, -, -, -, -, -, e0, e1, -⟩ := idx_facts t
  intro a
  match a with
  | ⟨0, _⟩ => show win0_6.index t (0 : Fin 2) * 1 ≤ (i 0).val ∧ (i 0).val < win0_6.index t (0 : Fin 2) * 1 + 1; rw [e0]; omega
  | ⟨1, _⟩ => show win0_6.index t (1 : Fin 2) * 32 ≤ (i 1).val ∧ (i 1).val < win0_6.index t (1 : Fin 2) * 32 + 32; rw [e1]; omega

/-- Block (0, 0) of the row of sums of squares is the row itself: reading the block of any row G at (0, q) reads G at (0, q). -/
theorem read_row7 (t : Fin cfg0.N) (G : Mat 1 32) (q : Fin 32) :
    ((cfg0.win 7).blk t).view.read (Elt Ideal) G (ix2 (0 : Fin 1) q) = G (ix2 (0 : Fin 1) q) := by
  show G (((cfg0.win 7).blk t).view.emb (ix2 (0 : Fin 1) q)) = G (ix2 (0 : Fin 1) q)
  refine congrArg G (funext fun a => Fin.ext ?_)
  obtain ⟨-, -, -, -, -, -, -, -, -, -, -, -, -, -, e0, e1⟩ := idx_facts t
  match a with
  | ⟨0, _⟩ => show win0_7.index t (0 : Fin 2) * 1 + 1 * 0 = 0; rw [e0]
  | ⟨1, _⟩ => show win0_7.index t (1 : Fin 2) * 32 + 1 * q.val = q.val; rw [e1]; omega

/-- The one write-back of the row of sums of squares, after the last point, writes the sum over all five blocks. -/
theorem flushed7_eq (c : Dev nD) (t : Fin cfg0.N) (hf : (cfg0.win 7).flush t = true) :
    (dat0 V c).flushed 7 t = ((cfg0.win 7).blk t).view.read (Elt Ideal) (colSumSq (Z V c)) := by
  have h4 : t.val = 4 := by have := (flush0_7 t).mp hf; have := pt_lt t; omega
  show (cfg0.win 7).cut (grid0.coords t) ((dat0 V c).after 7 t) = _
  rw [after0_7]
  funext y
  obtain ⟨u, q, rfl⟩ : ∃ (u : Fin 1) (q : Fin 32), y = ix2 u q := ⟨y 0, y 1, eq_ix2 y⟩
  obtain rfl : u = 0 := Subsingleton.elim _ _
  refine Eq.trans ?_ (read_row7 t (colSumSq (Z V c)) q).symm
  refine Eq.trans ?_ (colSumSq_row (Z V c) q).symm
  show (outsAt0 V c t.val t.isLt).2.2 (ix2 (0 : Fin 1) q) = _
  rw [acc7 V c t.val t.isLt q, h4]
  exact sum_blockSum (fun r => Z V c (ix2 r q) * Z V c (ix2 r q))

/-- The last point's block is the whole row. -/
theorem cover7 (i : S1x32.Idx) : ∃ t : Fin cfg0.N, (cfg0.win 7).flush t = true ∧ i ∈ ((cfg0.win 7).blk t).view.set := by
  have hi0 : (i 0).val < 1 := (i 0).isLt
  have hi1 : (i 1).val < 32 := (i 1).isLt
  have hN : cfg0.N = 5 := N_0
  refine ⟨⟨4, by rw [hN]; omega⟩, (flush0_7 _).mpr rfl, ?_⟩
  generalize (⟨4, by rw [hN]; omega⟩ : Fin cfg0.N) = t
  show i ∈ ((View.whole main_v17_2).slice (win0_7.rect t)).set
  rw [View.set_slice_whole, Rect.mem_set_unit]
  obtain ⟨-, -, -, -, -, -, -, -, -, -, -, -, -, -, e0, e1⟩ := idx_facts t
  intro a
  match a with
  | ⟨0, _⟩ => show win0_7.index t (0 : Fin 2) * 1 ≤ (i 0).val ∧ (i 0).val < win0_7.index t (0 : Fin 2) * 1 + 1; rw [e0]; omega
  | ⟨1, _⟩ => show win0_7.index t (1 : Fin 2) * 32 ≤ (i 1).val ∧ (i 1).val < win0_7.index t (1 : Fin 2) * 32 + 32; rw [e1]; omega

/-- The sum row after the region: the column sums over all 50000 rows. -/
theorem arr6_eq (c : Dev nD) : ((dat0 (F := Ideal) V c).arrAt 6 cfg0.N : Mat 1 32) = colSum (Z V c) :=
  (dat0 V c).arrAt_eq_of_cover 6 (colSum (Z V c)) (flushed6_eq V c) cover6

/-- The other row after the region: the column sums of the squares. -/
theorem arr7_eq (c : Dev nD) : ((dat0 (F := Ideal) V c).arrAt 7 cfg0.N : Mat 1 32) = colSumSq (Z V c) :=
  (dat0 V c).arrAt_eq_of_cover 7 (colSumSq (Z V c)) (flushed7_eq V c) cover7

end Rows

end Cert.KernelIdeal.KV.R0

namespace Cert.KernelIdeal.KV

open Cert.KernelIdeal Cert.KernelIdeal.Gen Idealize.ShloMosaic Idealize.ShloMosaic.TcCoe Idealize.SL.Sem
open Idealize.ShloMosaic.Pipeline (Dat)
open Cert.Gin

section Regions
variable (V : (c : Dev nD) → (b : Ref sig .tc) → Buf (Elt Ideal) ((c : Thread nD τ).loc b))

/-- After the region the row-tiled output is the first pair of dense layers of the arrays the region finds. -/
theorem region0_h1 (c : Dev nD) :
    ((dat0 (F := Ideal) V c).arrAt 5 cfg0.N : Mat 50000 32)
      = mlp1 (V c main_v14) (V c main_arg3) (V c main_v15) (V c main_arg5) (V c main_v16) := R0.arr5_eq V c

/-- After the region the first one-row output is the column sums of those dense layers over all 50000 rows. -/
theorem region0_sum (c : Dev nD) :
    ((dat0 (F := Ideal) V c).arrAt 6 cfg0.N : Mat 1 32)
      = colSum (mlp1 (V c main_v14) (V c main_arg3) (V c main_v15) (V c main_arg5) (V c main_v16)) := R0.arr6_eq V c

/-- After the region the second one-row output is the column sums of their squares. -/
theorem region0_sumsq (c : Dev nD) :
    ((dat0 (F := Ideal) V c).arrAt 7 cfg0.N : Mat 1 32)
      = colSumSq (mlp1 (V c main_v14) (V c main_arg3) (V c main_v15) (V c main_arg5) (V c main_v16)) := R0.arr7_eq V c

end Regions

end Cert.KernelIdeal.KV

end
-- ==== Proof.KReg1.lean ====
/-
  The normalisation region of the kernel program leaves, in its output array, the normalisation of the
  specification applied to the region's five input arrays.

  The region walks five row tiles of 10000 rows. At tile t it reads rows 10000·t … 10000·t + 9999 of the features
  and the whole of the four one-row arrays (mean, variance, scale, shift), and writes the same rows of the output.
  Entry (r, q) of what it writes is (h − mean_q) · rsqrt (var_q + eps) · scale_q + shift_q with h the feature at row
  10000·t + r, column q: a one-row array broadcast down the rows is read at its column whatever the row. So each
  tile written back is that tile of one function of the whole arrays, the five tiles cover every row, and the output
  array ends as that function.
-/
import proofs.«153798_j29678224015468_1_alg».proof.Proof.Gen.KernelIdeal.Frame
import proofs.«153798_j29678224015468_1_alg».proof.Proof.Spec
import Idealize.ShloMosaic.Lib.ValueIdx
import Idealize.ShloMosaic.Lib.Pipeline.Value
import Idealize.ShloMosaic.Lib.ValueLayout

noncomputable section

namespace Cert.KernelIdeal.KV

open Cert.KernelIdeal Cert.KernelIdeal.Gen Idealize.ShloMosaic Idealize.ShloMosaic.TcCoe Idealize.SL.Sem
open Idealize.ShloMosaic.Pipeline (Dat)
open Cert.Gin

namespace Reg1

open Idealize.ShloMosaic.ValueIdx

/-- The offset of an access that starts at the origin of its buffer. -/
theorem hz : (![0, 0] : Fin 2 → Nat) = fun _ => 0 := funext fun a => by fin_cases a <;> rfl

/-- Entry (r, q) of the value the body stores, from the blocks it loads: the feature block's entry less the mean
    row's at q, times the reciprocal root of the variance row's at q plus the stabiliser, times the scale row's at q,
    plus the shift row's at q. -/
theorem pay1_at (x0 : Vec Ideal S10000x32 .f32) (xv xm xg xb : Vec Ideal S1x32 .f32) (r : Fin 10000) (q : Fin 32) :
    k1_pay1 x0 xv xm xg xb (ix2 r q)
      = (x0 (ix2 r q) - xm (ix2 (0 : Fin 1) q)) * Ideal.rsqrt (xv (ix2 (0 : Fin 1) q) + epsW) * xg (ix2 (0 : Fin 1) q)
          + xb (ix2 (0 : Fin 1) q) := by
  unfold k1_pay1
  simp only [shapeCast_self, addf_apply, mulf_apply, subf_apply, broadcastTo_1b_ab_apply]
  rfl

/-- The same formula with every index named, so that it can be instantiated at indices given by equations. -/
theorem bn_at (z : Mat 50000 32) (mu var g b : Mat 1 32) (p : Fin 50000) (q : Fin 32)
    (i0 i5 : (⟨2, ![50000, 32]⟩ : Shape).Idx) (i1 i2 i3 i4 : (⟨2, ![1, 32]⟩ : Shape).Idx)
    (h0 : i0 = ix2 p q) (h5 : i5 = ix2 p q) (h1 : i1 = ix2 (0 : Fin 1) q) (h2 : i2 = ix2 (0 : Fin 1) q)
    (h3 : i3 = ix2 (0 : Fin 1) q) (h4 : i4 = ix2 (0 : Fin 1) q) :
    (z i0 - mu i1) * Ideal.rsqrt (var i2 + epsW) * g i3 + b i4 = bn z mu var g b i5 := by
  subst h0 h5 h1 h2 h3 h4
  rfl

/-- Where the windows sit at grid point t: the feature window and the output window at row tile t, the four one-row
    windows at the origin. -/
theorem idx_facts : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-! Entry (r, q) of a row tile at point t is entry (10000·t + r, q) of the array; entry (0, q) of a one-row window is
    entry (0, q) of its array. -/

theorem emb0 (t : Fin cfg1.N) (r : Fin 10000) (q : Fin 32) (h : t.val * 10000 + r.val < 50000) :
    ((cfg1.win 0).blk t).view.emb (ix2 r q) = ix2 (⟨t.val * 10000 + r.val, h⟩ : Fin 50000) q := by
  obtain ⟨a0, a1, f0, f1, _⟩ := idx_facts t
  funext a; apply Fin.ext
  match a with
  | ⟨0, _⟩ => show win1_0.index t (0 : Fin 2) * 10000 + 1 * r.val = t.val * 10000 + r.val; omega
  | ⟨1, _⟩ => show win1_0.index t (1 : Fin 2) * 32 + 1 * q.val = q.val; omega

theorem emb5 (t : Fin cfg1.N) (r : Fin 10000) (q : Fin 32) (h : t.val * 10000 + r.val < 50000) :
    ((cfg1.win 5).blk t).view.emb (ix2 r q) = ix2 (⟨t.val * 10000 + r.val, h⟩ : Fin 50000) q := by
  obtain ⟨a0, a1, f0, f1, _⟩ := idx_facts t
  funext a; apply Fin.ext
  match a with
  | ⟨0, _⟩ => show win1_5.index t (0 : Fin 2) * 10000 + 1 * r.val = t.val * 10000 + r.val; omega
  | ⟨1, _⟩ => show win1_5.index t (1 : Fin 2) * 32 + 1 * q.val = q.val; omega

theorem emb1 (t : Fin cfg1.N) (q : Fin 32) :
    ((cfg1.win 1).blk t).view.emb (ix2 (0 : Fin 1) q) = ix2 (0 : Fin 1) q := by
  obtain ⟨_, _, _, _, b0, b1, c0, c1, d0, d1, e0, e1⟩ := idx_facts t
  funext a; apply Fin.ext
  match a with
  | ⟨0, _⟩ => show win1_1.index t (0 : Fin 2) * 1 + 1 * 0 = 0; omega
  | ⟨1, _⟩ => show win1_1.index t (1 : Fin 2) * 32 + 1 * q.val = q.val; omega

theorem emb2 (t : Fin cfg1.N) (q : Fin 32) :
    ((cfg1.win 2).blk t).view.emb (ix2 (0 : Fin 1) q) = ix2 (0 : Fin 1) q := by
  obtain ⟨_, _, _, _, b0, b1, c0, c1, d0, d1, e0, e1⟩ := idx_facts t
  funext a; apply Fin.ext
  match a with
  | ⟨0, _⟩ => show win1_2.index t (0 : Fin 2) * 1 + 1 * 0 = 0; omega
  | ⟨1, _⟩ => show win1_2.index t (1 : Fin 2) * 32 + 1 * q.val = q.val; omega

theorem emb3 (t : Fin cfg1.N) (q : Fin 32) :
    ((cfg1.win 3).blk t).view.emb (ix2 (0 : Fin 1) q) = ix2 (0 : Fin 1) q := by
  obtain ⟨_, _, _, _, b0, b1, c0, c1, d0, d1, e0, e1⟩ := idx_facts t
  funext a; apply Fin.ext
  match a with
  | ⟨0, _⟩ => show win1_3.index t (0 : Fin 2) * 1 + 1 * 0 = 0; omega
  | ⟨1, _⟩ => show win1_3.index t (1 : Fin 2) * 32 + 1 * q.val = q.val; omega

theorem emb4 (t : Fin cfg1.N) (q : Fin 32) :
    ((cfg1.win 4).blk t).view.emb (ix2 (0 : Fin 1) q) = ix2 (0 : Fin 1) q := by
  obtain ⟨_, _, _, _, b0, b1, c0, c1, d0, d1, e0, e1⟩ := idx_facts t
  funext a; apply Fin.ext
  match a with
  | ⟨0, _⟩ => show win1_4.index t (0 : Fin 2) * 1 + 1 * 0 = 0; omega
  | ⟨1, _⟩ => show win1_4.index t (1 : Fin 2) * 32 + 1 * q.val = q.val; omega

section Regions
variable (V : (c : Dev nD) → (b : Ref sig .tc) → Buf (Elt Ideal) ((c : Thread nD τ).loc b))

/-- The value stored at point t, at an entry of the tile, is the normalisation of the whole arrays at the entry of
    the output array the tile's entry lands on. -/
theorem blk_eq (c : Dev nD) (t : Fin cfg1.N) (j : S10000x32.Idx) :
    k1_pay1 (iblk1 V c 0 t) (iblk1 V c 2 t) (iblk1 V c 1 t) (iblk1 V c 3 t) (iblk1 V c 4 t) j
      = bn (V c main_v17_0) (V c main_v26) (V c main_v27) (V c main_v28) (V c main_v29)
          (((cfg1.win 5).blk t).view.emb j) := by
  obtain ⟨r, q, rfl⟩ : ∃ (r : Fin 10000) (q : Fin 32), j = ix2 r q := ⟨_, _, eq_ix2 j⟩
  rw [pay1_at]
  have hb : t.val * 10000 + r.val < 50000 := by
    have h := t.isLt; have hN : cfg1.N = 5 := N_1; have hr := r.isLt; omega
  exact bn_at (V c main_v17_0) (V c main_v26) (V c main_v27) (V c main_v28) (V c main_v29)
    (⟨t.val * 10000 + r.val, hb⟩ : Fin 50000) q _ _ _ _ _ _ (emb0 t r q hb) (emb5 t r q hb) (emb1 t q) (emb2 t q)
    (emb3 t q) (emb4 t q)

/-- What point t writes back is tile t of the normalisation of the whole arrays. -/
theorem flushed_eq (c : Dev nD) (t : Fin cfg1.N) :
    (dat1 (F := Ideal) V c).flushed 5 t
      = ((cfg1.win 5).blk t).view.read (Elt Ideal)
          (bn (V c main_v17_0) (V c main_v26) (V c main_v27) (V c main_v28) (V c main_v29)) := by
  show (cfg1.win 5).cut (grid1.coords t) ((dat1 V c).after 5 t) = _
  rw [after1_5]
  unfold out1_5
  rw [View.canon_unit_zero hz]
  simp only [View.ld_unit_zero (S := S10000x32) hz, View.ld_unit_zero (S := S1x32) hz]
  funext j
  exact blk_eq V c t j

end Regions

/-- An entry of the output array lies in point t's tile iff each coordinate lies in the tile's range. -/
theorem mem_blk (t : Fin cfg1.N) (i : S50000x32.Idx) :
    i ∈ ((cfg1.win 5).blk t).view.set ↔ ∀ a : Fin 2, win1_5.index t a * S10000x32.size a ≤ (i a).val
      ∧ (i a).val < win1_5.index t a * S10000x32.size a + S10000x32.size a := by
  show i ∈ ((View.whole main_v30).slice (win1_5.rect t)).set ↔ _
  rw [View.set_slice_whole, Rect.mem_set_unit]
  exact Iff.rfl

/-- Every entry of the output array lies in the tile of the point its row divided by 10000 names. -/
theorem cover (i : S50000x32.Idx) :
    ∃ t : Fin cfg1.N, (cfg1.win 5).flush t = true ∧ i ∈ ((cfg1.win 5).blk t).view.set := by
  have hi0 : (i 0).val < 50000 := (i 0).isLt
  have hi1 : (i 1).val < 32 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨_, _, f0, f1, _⟩ := idx_facts t
  refine ⟨t, flush1_5 t, ?_⟩
  rw [mem_blk]
  intro a
  match a with
  | ⟨0, _⟩ =>
    show win1_5.index t (0 : Fin 2) * 10000 ≤ (i 0).val ∧ (i 0).val < win1_5.index t (0 : Fin 2) * 10000 + 10000
    omega
  | ⟨1, _⟩ =>
    show win1_5.index t (1 : Fin 2) * 32 ≤ (i 1).val ∧ (i 1).val < win1_5.index t (1 : Fin 2) * 32 + 32
    omega

end Reg1

section Regions
variable (V : (c : Dev nD) → (b : Ref sig .tc) → Buf (Elt Ideal) ((c : Thread nD τ).loc b))

/-- The output array after the normalisation region: the normalisation of the region's five input arrays. -/
theorem region1_value (c : Dev nD) :
    ((dat1 (F := Ideal) V c).arrAt 5 cfg1.N : Mat 50000 32)
      = bn (V c main_v17_0) (V c main_v26) (V c main_v27) (V c main_v28) (V c main_v29) :=
  (dat1 V c).arrAt_eq_of_cover 5 _ (fun t _ => Reg1.flushed_eq V c t) Reg1.cover

end Regions

end Cert.KernelIdeal.KV

end
-- ==== Proof.KReg2.lean ====
/-
  The third call of the kernel program, as one function of the arrays it finds.

  The call runs over five points. At point `t` it is handed rows `10000 t … 10000 t + 9999` of the 50000 × 32 input
  and the whole of two weights and two one-row biases, and it writes rows `10000 t … 10000 t + 9999` of the 50000 × 10
  result. The block it stores is, entry by entry,

      (∑ k, max ((∑ j, h (r, j) · Wa (j, k)) + ba k) 0 · Wb (k, q)) + bb q

  — two products of matrices into zero accumulators (the changes of float format around them are the identity on the
  extended reals), each followed by its bias repeated down the rows, with a cut at zero between them. An entry of row
  `r` of the block depends on row `r` of the input block only, that is on row `10000 t + r` of the input array, so the
  block is the restriction to those rows of ONE function of the whole arrays (`Cert.Gin.mlp2`). The five blocks tile the
  50000 rows and every point writes its block back, so after the call the result array is that function.
-/
import proofs.«153798_j29678224015468_1_alg».proof.Proof.Gen.KernelIdeal.Frame
import proofs.«153798_j29678224015468_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KV

open Cert.KernelIdeal Cert.KernelIdeal.Gen Idealize.ShloMosaic Idealize.ShloMosaic.TcCoe Idealize.SL.Sem
open Idealize.ShloMosaic.Pipeline (Dat)
open Idealize.ShloMosaic.ValueIdx
open Cert.Gin

namespace R2

/-! ## The two matrix products read at an entry

    The operand indices of a product with one contracted axis, coordinate by coordinate: the left operand is read at
    (row of the output, contracted coordinate), the right one at (contracted coordinate, column of the output). -/

theorem lhsA_0 (i : S10000x32.Idx) (q : dot_S10000x32_S32x32_S10000x32_1_0_0_1_n_n.contr.Idx) : (dot_S10000x32_S32x32_S10000x32_1_0_0_1_n_n.lhsIdx i q 0).val = (i 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhsA_1 (i : S10000x32.Idx) (q : dot_S10000x32_S32x32_S10000x32_1_0_0_1_n_n.contr.Idx) : (dot_S10000x32_S32x32_S10000x32_1_0_0_1_n_n.lhsIdx i q 1).val = (q ⟨0, by decide⟩).val :=
  dot_S10000x32_S32x32_S10000x32_1_0_0_1_n_n.lhsIdx_val_of_single rfl i q
theorem rhsA_0 (i : S10000x32.Idx) (q : dot_S10000x32_S32x32_S10000x32_1_0_0_1_n_n.contr.Idx) : (dot_S10000x32_S32x32_S10000x32_1_0_0_1_n_n.rhsIdx i q 0).val = (q ⟨0, by decide⟩).val :=
  dot_S10000x32_S32x32_S10000x32_1_0_0_1_n_n.rhsIdx_val_of_single rfl i q
theorem rhsA_1 (i : S10000x32.Idx) (q : dot_S10000x32_S32x32_S10000x32_1_0_0_1_n_n.contr.Idx) : (dot_S10000x32_S32x32_S10000x32_1_0_0_1_n_n.rhsIdx i q 1).val = (i 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- A product of a block of rows with a weight into the zero accumulator, read at row `r` and column `k`: the sum over
    the shared axis of the row's entries times the column's. -/
theorem matmulA_apply (a : FVec Ideal S10000x32 .bf16) (b : FVec Ideal S32x32 .bf16) (r : Fin 10000) (k : Fin 32) :
    matmul dot_S10000x32_S32x32_S10000x32_1_0_0_1_n_n none a b (constant S10000x32 .f32 0x00000000#32) (ix2 r k)
      = ∑ j : Fin 32, a (ix2 r j) * b (ix2 j k) := by
  refine (Ideal.matmul_constant_zero_apply dot_S10000x32_S32x32_S10000x32_1_0_0_1_n_n none a b (ix2 r k)).trans ?_
  rw [← Equiv.sum_comp (contrEquiv1 dot_S10000x32_S32x32_S10000x32_1_0_0_1_n_n 32 rfl rfl).symm]
  refine Finset.sum_congr rfl fun j _ => ?_
  have hk := contrEquiv1_symm_val dot_S10000x32_S32x32_S10000x32_1_0_0_1_n_n 32 rfl rfl j
  have el : dot_S10000x32_S32x32_S10000x32_1_0_0_1_n_n.lhsIdx (ix2 r k) ((contrEquiv1 dot_S10000x32_S32x32_S10000x32_1_0_0_1_n_n 32 rfl rfl).symm j) = ix2 r j := funext fun a => Fin.ext (by
    match a with
    | ⟨0, _⟩ => exact lhsA_0 _ _
    | ⟨1, _⟩ => exact (lhsA_1 _ _).trans hk)
  have er : dot_S10000x32_S32x32_S10000x32_1_0_0_1_n_n.rhsIdx (ix2 r k) ((contrEquiv1 dot_S10000x32_S32x32_S10000x32_1_0_0_1_n_n 32 rfl rfl).symm j) = ix2 j k := funext fun a => Fin.ext (by
    match a with
    | ⟨0, _⟩ => exact (rhsA_0 _ _).trans hk
    | ⟨1, _⟩ => exact rhsA_1 _ _)
  rw [el, er]

theorem lhsB_0 (i : S10000x10.Idx) (q : dot_S10000x32_S32x10_S10000x10_1_0_0_1_n_n.contr.Idx) : (dot_S10000x32_S32x10_S10000x10_1_0_0_1_n_n.lhsIdx i q 0).val = (i 0).val := by
  unfold DotDims.lhsIdx
  rw [dif_neg (show ¬(0 : Fin S10000x32.rank) ∈ dot_S10000x32_S32x10_S10000x10_1_0_0_1_n_n.lhsBatch by decide), dif_pos (show (0 : Fin S10000x32.rank) ∈ dot_S10000x32_S32x10_S10000x10_1_0_0_1_n_n.lhsNonContracting by decide)]
  rfl
theorem lhsB_1 (i : S10000x10.Idx) (q : dot_S10000x32_S32x10_S10000x10_1_0_0_1_n_n.contr.Idx) : (dot_S10000x32_S32x10_S10000x10_1_0_0_1_n_n.lhsIdx i q 1).val = (q ⟨0, by decide⟩).val :=
  dot_S10000x32_S32x10_S10000x10_1_0_0_1_n_n.lhsIdx_val_of_single rfl i q
theorem rhsB_0 (i : S10000x10.Idx) (q : dot_S10000x32_S32x10_S10000x10_1_0_0_1_n_n.contr.Idx) : (dot_S10000x32_S32x10_S10000x10_1_0_0_1_n_n.rhsIdx i q 0).val = (q ⟨0, by decide⟩).val :=
  dot_S10000x32_S32x10_S10000x10_1_0_0_1_n_n.rhsIdx_val_of_single rfl i q
theorem rhsB_1 (i : S10000x10.Idx) (q : dot_S10000x32_S32x10_S10000x10_1_0_0_1_n_n.contr.Idx) : (dot_S10000x32_S32x10_S10000x10_1_0_0_1_n_n.rhsIdx i q 1).val = (i 1).val := by
  unfold DotDims.rhsIdx
  rw [dif_neg (show ¬(1 : Fin S32x10.rank) ∈ dot_S10000x32_S32x10_S10000x10_1_0_0_1_n_n.rhsBatch by decide), dif_pos (show (1 : Fin S32x10.rank) ∈ dot_S10000x32_S32x10_S10000x10_1_0_0_1_n_n.rhsNonContracting by decide)]
  rfl

/-- A product of a block of rows with a weight into the zero accumulator, read at row `r` and column `k`: the sum over
    the shared axis of the row's entries times the column's. -/
theorem matmulB_apply (a : FVec Ideal S10000x32 .bf16) (b : FVec Ideal S32x10 .bf16) (r : Fin 10000) (k : Fin 10) :
    matmul dot_S10000x32_S32x10_S10000x10_1_0_0_1_n_n none a b (constant S10000x10 .f32 0x00000000#32) (ix2 r k)
      = ∑ j : Fin 32, a (ix2 r j) * b (ix2 j k) := by
  refine (Ideal.matmul_constant_zero_apply dot_S10000x32_S32x10_S10000x10_1_0_0_1_n_n none a b (ix2 r k)).trans ?_
  rw [← Equiv.sum_comp (contrEquiv1 dot_S10000x32_S32x10_S10000x10_1_0_0_1_n_n 32 rfl rfl).symm]
  refine Finset.sum_congr rfl fun j _ => ?_
  have hk := contrEquiv1_symm_val dot_S10000x32_S32x10_S10000x10_1_0_0_1_n_n 32 rfl rfl j
  have el : dot_S10000x32_S32x10_S10000x10_1_0_0_1_n_n.lhsIdx (ix2 r k) ((contrEquiv1 dot_S10000x32_S32x10_S10000x10_1_0_0_1_n_n 32 rfl rfl).symm j) = ix2 r j := funext fun a => Fin.ext (by
    match a with
    | ⟨0, _⟩ => exact lhsB_0 _ _
    | ⟨1, _⟩ => exact (lhsB_1 _ _).trans hk)
  have er : dot_S10000x32_S32x10_S10000x10_1_0_0_1_n_n.rhsIdx (ix2 r k) ((contrEquiv1 dot_S10000x32_S32x10_S10000x10_1_0_0_1_n_n 32 rfl rfl).symm j) = ix2 j k := funext fun a => Fin.ext (by
    match a with
    | ⟨0, _⟩ => exact (rhsB_0 _ _).trans hk
    | ⟨1, _⟩ => exact rhsB_1 _ _)
  rw [el, er]

/-! ## The stored block at an entry -/

/-- The stored block of the second pair of dense layers, read at row `r` and column `q` of the block: the inner layer's
    32 hidden units (each a sum over the 32 input columns plus its bias, cut at zero) against column `q` of the outer
    weight, plus the outer bias. The changes of float format are the identity on the extended reals. -/
theorem pay2_apply (x0 : Vec Ideal S10000x32 .f32) (x1 : Vec Ideal S32x32 .f32) (x2 : Vec Ideal S1x32 .f32)
    (x3 : Vec Ideal S32x10 .f32) (x4 : Vec Ideal S1x10 .f32) (r : Fin 10000) (q : Fin 10) :
    k2_pay1 (F := Ideal) x0 x1 x2 x3 x4 (ix2 r q)
      = (∑ k : Fin 32, max ((∑ j : Fin 32, x0 (ix2 r j) * x1 (ix2 j k)) + x2 (ix2 (0 : Fin 1) k)) zeroW * x3 (ix2 k q))
          + x4 (ix2 (0 : Fin 1) q) := by
  unfold k2_pay1
  refine congrArg₂ (· + ·) ?_ ?_
  · refine (matmulB_apply _ _ r q).trans (Finset.sum_congr rfl fun k _ => ?_)
    refine congrArg₂ (· * ·) ?_ rfl
    refine congrArg₂ max (congrArg₂ (· + ·) ?_ ?_) rfl
    · refine (matmulA_apply _ _ r k).trans (Finset.sum_congr rfl fun j _ => ?_)
      exact congrArg₂ (· * ·) (congrFun (shapeCast_self x0 _) _) rfl
    · exact (broadcastTo_1b_ab_apply _ _ r k).trans (congrFun (shapeCast_self x2 _) _)
  · exact (broadcastTo_1b_ab_apply _ _ r q).trans (congrFun (shapeCast_self x4 _) _)

/-- The zero offsets of a whole-block access, as a constant function. -/
theorem hz : (![0, 0] : Fin 2 → Nat) = fun _ => 0 := funext fun a => by fin_cases a <;> rfl

/-! ## The third call's blocks

    Its grid has five points. Point `t`'s block of a row-tiled window is rows `10000 t … 10000 t + 9999` of the array
    (block index `(t, 0)`); every other window's block is its whole array (block index `(0, 0)`). The index maps are
    decided once over the five points. -/

theorem idx_facts2_0 : ∀ t : Fin cfg2.N, win2_0.index t (0 : Fin 2) = t.val ∧ win2_0.index t (1 : Fin 2) = 0 :=
  (by decide +kernel : ∀ t : Fin grid2.N, _)

theorem idx_facts2_1 : ∀ t : Fin cfg2.N, win2_1.index t (0 : Fin 2) = 0 ∧ win2_1.index t (1 : Fin 2) = 0 :=
  (by decide +kernel : ∀ t : Fin grid2.N, _)

theorem idx_facts2_2 : ∀ t : Fin cfg2.N, win2_2.index t (0 : Fin 2) = 0 ∧ win2_2.index t (1 : Fin 2) = 0 :=
  (by decide +kernel : ∀ t : Fin grid2.N, _)

theorem idx_facts2_3 : ∀ t : Fin cfg2.N, win2_3.index t (0 : Fin 2) = 0 ∧ win2_3.index t (1 : Fin 2) = 0 :=
  (by decide +kernel : ∀ t : Fin grid2.N, _)

theorem idx_facts2_4 : ∀ t : Fin cfg2.N, win2_4.index t (0 : Fin 2) = 0 ∧ win2_4.index t (1 : Fin 2) = 0 :=
  (by decide +kernel : ∀ t : Fin grid2.N, _)

theorem idx_facts2_5 : ∀ t : Fin cfg2.N, win2_5.index t (0 : Fin 2) = t.val ∧ win2_5.index t (1 : Fin 2) = 0 :=
  (by decide +kernel : ∀ t : Fin grid2.N, _)

/-! ## Each input block read where the output's rows say -/

section Region2
variable (V : (c : Dev nD) → (b : Ref sig .tc) → Buf (Elt Ideal) ((c : Thread nD τ).loc b))

theorem blk2_0_apply (c : Dev nD) (t : Fin cfg2.N) (r : Fin 10000) (j : Fin 32) (p : Fin 50000) (hp : p.val = 10000 * t.val + r.val) :
    iblk2 V c 0 t (ix2 r j) = V c main_v41 (ix2 p j) := by
  have hi : win2_0.index t (0 : Fin 2) = t.val ∧ win2_0.index t (1 : Fin 2) = 0 := idx_facts2_0 t
  unfold iblk2
  rw [View.read_apply]
  show V c main_v41 _ = V c main_v41 _
  refine congrArg _ (funext fun a => Fin.ext ?_)
  match a with
  | ⟨0, _⟩ => show win2_0.index t (0 : Fin 2) * 10000 + 1 * r.val = p.val; omega
  | ⟨1, _⟩ => show win2_0.index t (1 : Fin 2) * 32 + 1 * j.val = j.val; omega

theorem blk2_1_apply (c : Dev nD) (t : Fin cfg2.N) (r : Fin 32) (j : Fin 32) :
    iblk2 V c 1 t (ix2 r j) = V c main_arg9 (ix2 r j) := by
  have hi : win2_1.index t (0 : Fin 2) = 0 ∧ win2_1.index t (1 : Fin 2) = 0 := idx_facts2_1 t
  unfold iblk2
  rw [View.read_apply]
  show V c main_arg9 _ = V c main_arg9 _
  refine congrArg _ (funext fun a => Fin.ext ?_)
  match a with
  | ⟨0, _⟩ => show win2_1.index t (0 : Fin 2) * 32 + 1 * r.val = r.val; omega
  | ⟨1, _⟩ => show win2_1.index t (1 : Fin 2) * 32 + 1 * j.val = j.val; omega

theorem blk2_2_apply (c : Dev nD) (t : Fin cfg2.N) (r : Fin 1) (j : Fin 32) :
    iblk2 V c 2 t (ix2 r j) = V c main_v42 (ix2 r j) := by
  have hi : win2_2.index t (0 : Fin 2) = 0 ∧ win2_2.index t (1 : Fin 2) = 0 := idx_facts2_2 t
  unfold iblk2
  rw [View.read_apply]
  show V c main_v42 _ = V c main_v42 _
  refine congrArg _ (funext fun a => Fin.ext ?_)
  match a with
  | ⟨0, _⟩ => show win2_2.index t (0 : Fin 2) * 1 + 1 * r.val = r.val; omega
  | ⟨1, _⟩ => show win2_2.index t (1 : Fin 2) * 32 + 1 * j.val = j.val; omega

theorem blk2_3_apply (c : Dev nD) (t : Fin cfg2.N) (r : Fin 32) (j : Fin 10) :
    iblk2 V c 3 t (ix2 r j) = V c main_arg11 (ix2 r j) := by
  have hi : win2_3.index t (0 : Fin 2) = 0 ∧ win2_3.index t (1 : Fin 2) = 0 := idx_facts2_3 t
  unfold iblk2
  rw [View.read_apply]
  show V c main_arg11 _ = V c main_arg11 _
  refine congrArg _ (funext fun a => Fin.ext ?_)
  match a with
  | ⟨0, _⟩ => show win2_3.index t (0 : Fin 2) * 32 + 1 * r.val = r.val; omega
  | ⟨1, _⟩ => show win2_3.index t (1 : Fin 2) * 10 + 1 * j.val = j.val; omega

theorem blk2_4_apply (c : Dev nD) (t : Fin cfg2.N) (r : Fin 1) (j : Fin 10) :
    iblk2 V c 4 t (ix2 r j) = V c main_v43 (ix2 r j) := by
  have hi : win2_4.index t (0 : Fin 2) = 0 ∧ win2_4.index t (1 : Fin 2) = 0 := idx_facts2_4 t
  unfold iblk2
  rw [View.read_apply]
  show V c main_v43 _ = V c main_v43 _
  refine congrArg _ (funext fun a => Fin.ext ?_)
  match a with
  | ⟨0, _⟩ => show win2_4.index t (0 : Fin 2) * 1 + 1 * r.val = r.val; omega
  | ⟨1, _⟩ => show win2_4.index t (1 : Fin 2) * 10 + 1 * j.val = j.val; omega

end Region2

/-! ## From the blocks to the array -/

section Region2b
variable (V : (c : Dev nD) → (b : Ref sig .tc) → Buf (Elt Ideal) ((c : Thread nD τ).loc b))

/-- Two functions on a 10000 × 10 block agree when they agree at every row and column. -/
theorem ext_10000x10 {α : Type} {f g : S10000x10.Idx → α} (h : ∀ (r : Fin 10000) (q : Fin 10), f (ix2 r q) = g (ix2 r q)) :
    f = g := funext fun y => by rw [eq_ix2 y]; exact h _ _

/-- An entry of the output block of point `t` sits in the array at row `10000 t + r`, same column. -/
theorem emb2_5 (t : Fin cfg2.N) (r : Fin 10000) (q : Fin 10) (p : Fin 50000) (hp : p.val = 10000 * t.val + r.val) :
    ((cfg2.win 5).blk t).view.emb (ix2 r q) = ix2 p q := by
  have hi := idx_facts2_5 t
  refine funext fun a => Fin.ext ?_
  match a with
  | ⟨0, _⟩ => show win2_5.index t (0 : Fin 2) * 10000 + 1 * r.val = p.val; omega
  | ⟨1, _⟩ => show win2_5.index t (1 : Fin 2) * 10 + 1 * q.val = q.val; omega

/-- What point `t` writes back is the block-read of the whole-array function: rows `10000 t …` of the dense layers
    applied to the arrays as the call finds them. -/
theorem flushed2_eq (c : Dev nD) (t : Fin cfg2.N) :
    (dat2 (F := Ideal) V c).flushed 5 t = ((cfg2.win 5).blk t).view.read (Elt Ideal)
      (mlp2 (V c main_v41) (V c main_arg9) (V c main_v42) (V c main_arg11) (V c main_v43)) := by
  show (cfg2.win 5).cut (grid2.coords t) ((dat2 (F := Ideal) V c).after 5 t) = _
  rw [after2_5]
  unfold out2_5
  rw [View.canon_unit_zero hz]
  simp only [View.ld_unit_zero (S := S10000x32) hz, View.ld_unit_zero (S := S32x32) hz, View.ld_unit_zero (S := S1x32) hz,
    View.ld_unit_zero (S := S32x10) hz, View.ld_unit_zero (S := S1x10) hz]
  refine ext_10000x10 fun r q => ?_
  have hN : grid2.N = 5 := N_2
  have ht : t.val < 5 := hN ▸ t.isLt
  let p : Fin 50000 := ⟨10000 * t.val + r.val, by have := r.isLt; omega⟩
  have hp : p.val = 10000 * t.val + r.val := rfl
  show k2_pay1 (F := Ideal) (iblk2 V c 0 t) (iblk2 V c 1 t) (iblk2 V c 2 t) (iblk2 V c 3 t) (iblk2 V c 4 t) (ix2 r q)
    = mlp2 (V c main_v41) (V c main_arg9) (V c main_v42) (V c main_arg11) (V c main_v43) (((cfg2.win 5).blk t).view.emb (ix2 r q))
  rw [emb2_5 t r q p hp, mlp2_apply]
  refine (pay2_apply (iblk2 V c 0 t) (iblk2 V c 1 t) (iblk2 V c 2 t) (iblk2 V c 3 t) (iblk2 V c 4 t) r q).trans ?_
  unfold mlp2At
  exact congrArg₂ (· + ·) (Finset.sum_congr rfl fun k _ => congrArg₂ (· * ·) (congrArg₂ max (congrArg₂ (· + ·)
    (Finset.sum_congr rfl fun j _ => congrArg₂ (· * ·) (blk2_0_apply V c t r j p hp) (blk2_1_apply V c t j k))
    (blk2_2_apply V c t 0 k)) rfl) (blk2_3_apply V c t k q)) (blk2_4_apply V c t 0 q)

end Region2b

/-- An index of the result array is in point `t`'s block iff each coordinate is in the block's range on its axis. -/
theorem mem_blk2_5 (t : Fin cfg2.N) (i : S50000x10.Idx) :
    i ∈ ((cfg2.win 5).blk t).view.set ↔ ∀ a : Fin 2, win2_5.index t a * S10000x10.size a ≤ (i a).val
      ∧ (i a).val < win2_5.index t a * S10000x10.size a + S10000x10.size a := by
  show i ∈ ((View.whole main_v44).slice (win2_5.rect t)).set ↔ _
  rw [View.set_slice_whole, Rect.mem_set_unit]
  exact Iff.rfl

/-- The five blocks tile the 50000 rows: row `p` is in the block of point `p / 10000`, and every point writes back. -/
theorem covered2_5 (i : S50000x10.Idx) :
    ∃ t : Fin cfg2.N, (cfg2.win 5).flush t = true ∧ i ∈ ((cfg2.win 5).blk t).view.set := by
  have hN : grid2.N = 5 := N_2
  have hi0 : (i 0).val < 50000 := (i 0).isLt
  have hi1 : (i 1).val < 10 := (i 1).isLt
  have hlt : (i 0).val / 10000 < grid2.N := by omega
  refine ⟨⟨(i 0).val / 10000, hlt⟩, flush2_5 _, ?_⟩
  rw [mem_blk2_5]
  have hi := idx_facts2_5 ⟨(i 0).val / 10000, hlt⟩
  have htv : (⟨(i 0).val / 10000, hlt⟩ : Fin cfg2.N).val = (i 0).val / 10000 := rfl
  intro a
  match a with
  | ⟨0, _⟩ =>
    show win2_5.index ⟨(i 0).val / 10000, hlt⟩ (0 : Fin 2) * 10000 ≤ (i 0).val
      ∧ (i 0).val < win2_5.index ⟨(i 0).val / 10000, hlt⟩ (0 : Fin 2) * 10000 + 10000
    omega
  | ⟨1, _⟩ =>
    show win2_5.index ⟨(i 0).val / 10000, hlt⟩ (1 : Fin 2) * 10 ≤ (i 1).val
      ∧ (i 1).val < win2_5.index ⟨(i 0).val / 10000, hlt⟩ (1 : Fin 2) * 10 + 10
    omega

end R2

section Regions
variable (V : (c : Dev nD) → (b : Ref sig .tc) → Buf (Elt Ideal) ((c : Thread nD τ).loc b))

/-- After the third call its result array is the second pair of dense layers of the arrays the call found. -/
theorem region2_value (c : Dev nD) :
    ((dat2 (F := Ideal) V c).arrAt 5 cfg2.N : Mat 50000 10)
      = mlp2 (V c main_v41) (V c main_arg9) (V c main_v42) (V c main_arg11) (V c main_v43) :=
  (dat2 (F := Ideal) V c).arrAt_eq_of_cover 5 _ (fun t _ => R2.flushed2_eq V c t) R2.covered2_5

end Regions

end Cert.KernelIdeal.KV

end
-- ==== Proof.LibRowBias.lean ====
/-
  A bias vector laid out as one row and repeated down the rows of a matrix, read at an entry.

  A kernel body adds a bias `b : [o]` to every row of an `[a, o]` block by casting it to `[1, o]` and broadcasting
  that row to `[a, o]`. Entry `(p, q)` of the result is `b q`, whatever the row `p`, for any extents and any
  element type.
-/
import Idealize.ShloMosaic.Lib.Pipeline.Value
import Idealize.ShloMosaic.Lib.ValueIdx
import Idealize.ShloMosaic.Lib.ValueLayout

namespace Cert.Gcn

open Idealize.ShloMosaic Idealize.ShloMosaic.ValueIdx

/-- Entry `(p, q)` of a `[o]` vector cast to `[1, o]` and broadcast to `[a, o]` is the vector's entry `q`. -/
theorem rowBias_apply {α : Type} {a o : ℕ} (v : (⟨1, ![o]⟩ : Shape).Idx → α)
    (h1 : (⟨1, ![o]⟩ : Shape).ShapeCasts ⟨2, ![1, o]⟩) (h2 : (⟨2, ![1, o]⟩ : Shape).Broadcasts ⟨2, ![a, o]⟩)
    (p : Fin a) (q : Fin o) :
    broadcastTo ⟨2, ![a, o]⟩ (shapeCast ⟨2, ![1, o]⟩ v h1) h2 (ix2 p q) = v (ix1 q) :=
  (broadcastTo_1b_ab_apply _ h2 p q).trans (shapeCast_a_1a_apply v h1 0 q)

end Cert.Gcn
-- ==== Proof.KHost.lean ====
/-
  What the host stretches of the idealized kernel program leave in the buffers the regions read.

  The program is three TensorCore regions among three stretches of host operations. This module reads the short
  results of those stretches as functions of the launch memory `m` and of what the region before left:
  a bias vector reshaped to one row is the vector laid out as a row (`rowOf`); the mean and the variance the second
  stretch computes from the two accumulated rows are `meanK` and `varK`; a buffer no operation writes and no region
  has as an output is as it was. (The two aggregations over the edge list are read in a module of their own.)
-/
import proofs.«153798_j29678224015468_1_alg».proof.Proof.Gen.KernelIdeal.Frame
import proofs.«153798_j29678224015468_1_alg».proof.Proof.Gen.ReferenceIdeal.Read
import proofs.«153798_j29678224015468_1_alg».proof.Proof.Spec
import proofs.«153798_j29678224015468_1_alg».proof.Proof.RefAgg
import proofs.«153798_j29678224015468_1_alg».proof.Proof.LibRowBias
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.IdealHost

noncomputable section

namespace Cert.KernelIdeal.KV

open Cert.KernelIdeal Cert.KernelIdeal.Gen Idealize.ShloMosaic Idealize.ShloMosaic.TcCoe Idealize.SL.Sem
open Idealize.ShloMosaic.Pipeline (Dat)
open Cert.Gin

variable (m : (ℓ : Loc nD τ sig) → Buf (Elt Ideal) ℓ) (ρ : Dev nD → PrngReg)

/-- A buffer that no operation of a host stretch writes keeps its contents across the stretch. -/
local macro "untouched_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Reshapes between a vector and a one-row matrix, read whole -/

/-- A vector cast to a one-row matrix is the vector laid out as a row. -/
theorem cast_row {k : Nat} (v : Vct k) (h : (⟨1, ![k]⟩ : Shape).ShapeCasts ⟨2, ![1, k]⟩) :
    (shapeCast ⟨2, ![1, k]⟩ v h : Mat 1 k) = rowOf v := by
  funext i
  calc shapeCast ⟨2, ![1, k]⟩ v h i
      = shapeCast ⟨2, ![1, k]⟩ v h (ValueIdx.ix2 (row i) (col i)) := by rw [ix2_row_col]
    _ = v (ValueIdx.ix1 (col i)) := ValueIdx.shapeCast_a_1a_apply v h (row i) (col i)

/-- A one-row matrix cast to a vector reads, at `q`, the matrix at `(0, q)`. -/
theorem cast_vec_apply {k : Nat} (s : Mat 1 k) (h : (⟨2, ![1, k]⟩ : Shape).ShapeCasts ⟨1, ![k]⟩) (q : Fin k) :
    shapeCast ⟨1, ![k]⟩ s h (ValueIdx.ix1 q) = s (ValueIdx.ix2 (0 : Fin 1) q) := ValueIdx.shapeCast_1a_a_apply s h q

/-! ## The column statistics from the two accumulated rows -/

/-- The row count's word broadcast to 32 entries reads that word everywhere. -/
theorem nW_apply (hb : S_.BroadcastsInDim S32 (![] : Fin 0 → Fin S32.rank)) (j : S32.Idx) :
    broadcastInDim S32 ![] hb (constant (F := Ideal) S_ .f32 0x47435000#32) j = nW :=
  ValueIdx.broadcastInDim_scalar_apply hb _ j

/-- The mean as the host computes it: the row of sums as a vector, divided by the row count, as a row again. -/
theorem mean_read (s : Mat 1 32) (h1 : S1x32.ShapeCasts S32) (h2 : S32.ShapeCasts S1x32)
    (hb : S_.BroadcastsInDim S32 (![] : Fin 0 → Fin S32.rank)) :
    (shapeCast S1x32 (Host.divf (F := Ideal) (φ := .f32) (shapeCast S32 s h1)
        (broadcastInDim S32 ![] hb (constant (F := Ideal) S_ .f32 0x47435000#32))) h2 : Mat 1 32) = meanK s := by
  rw [cast_row]
  funext i
  show Ideal.div (shapeCast S32 s h1 (ValueIdx.ix1 (col i))) (broadcastInDim S32 ![] hb (constant (F := Ideal) S_ .f32 0x47435000#32) (ValueIdx.ix1 (col i))) = _
  rw [cast_vec_apply, nW_apply]
  rfl

/-- The variance as the host computes it: the mean of the squares less the square of the mean. -/
theorem var_read (s sq : Mat 1 32) (h1 : S1x32.ShapeCasts S32) (h2 : S32.ShapeCasts S1x32)
    (hb : S_.BroadcastsInDim S32 (![] : Fin 0 → Fin S32.rank)) :
    (shapeCast S1x32
        (subf (F := Ideal) (φ := .f32)
          (Host.divf (shapeCast S32 sq h1) (broadcastInDim S32 ![] hb (constant (F := Ideal) S_ .f32 0x47435000#32)))
          (mulf
            (Host.divf (shapeCast S32 s h1) (broadcastInDim S32 ![] hb (constant (F := Ideal) S_ .f32 0x47435000#32)))
            (Host.divf (shapeCast S32 s h1) (broadcastInDim S32 ![] hb (constant (F := Ideal) S_ .f32 0x47435000#32)))))
        h2 : Mat 1 32) = varK s sq := by
  rw [cast_row]
  funext i
  show Ideal.div (shapeCast S32 sq h1 (ValueIdx.ix1 (col i))) (broadcastInDim S32 ![] hb (constant (F := Ideal) S_ .f32 0x47435000#32) (ValueIdx.ix1 (col i)))
      - Ideal.div (shapeCast S32 s h1 (ValueIdx.ix1 (col i))) (broadcastInDim S32 ![] hb (constant (F := Ideal) S_ .f32 0x47435000#32) (ValueIdx.ix1 (col i)))
        * Ideal.div (shapeCast S32 s h1 (ValueIdx.ix1 (col i))) (broadcastInDim S32 ![] hb (constant (F := Ideal) S_ .f32 0x47435000#32) (ValueIdx.ix1 (col i))) = _
  rw [cast_vec_apply, cast_vec_apply, nW_apply]
  rfl

/-! ## Stretch 0 -/

open Idealize.ShloMosaic.StableHlo in
theorem host0_v15 (c : Dev nD) : (V1 m ρ c main_v15 : Mat 1 32) = rowOf (m ((c : Thread nD τ).loc main_arg4)) := by
  have e : (V1 m ρ c main_v15 : S1x32.Idx → EReal)
      = shapeCast S1x32 (m ((c : Thread nD τ).loc main_arg4) : S32.Idx → EReal) shapeCasts_S32_S1x32 := by
    dsimp only [V1, W1, hostOps0]; after_results; rfl
  exact e.trans (cast_row _ _)

open Idealize.ShloMosaic.StableHlo in
theorem host0_v16 (c : Dev nD) : (V1 m ρ c main_v16 : Mat 1 32) = rowOf (m ((c : Thread nD τ).loc main_arg6)) := by
  have e : (V1 m ρ c main_v16 : S1x32.Idx → EReal)
      = shapeCast S1x32 (m ((c : Thread nD τ).loc main_arg6) : S32.Idx → EReal) shapeCasts_S32_S1x32 := by
    dsimp only [V1, W1, hostOps0]; after_results; rfl
  exact e.trans (cast_row _ _)

theorem host0_arg3 (c : Dev nD) : V1 m ρ c main_arg3 = m ((c : Thread nD τ).loc main_arg3) := by
  show StableHlo.after hostOps0 (W0 m ρ c) (Proc.devRef .tc main_arg3) = W0 m ρ c (Proc.devRef .tc main_arg3)
  untouched_by hostOps0

theorem host0_arg5 (c : Dev nD) : V1 m ρ c main_arg5 = m ((c : Thread nD τ).loc main_arg5) := by
  show StableHlo.after hostOps0 (W0 m ρ c) (Proc.devRef .tc main_arg5) = W0 m ρ c (Proc.devRef .tc main_arg5)
  untouched_by hostOps0

/-! ## Stretch 1, over what region 0 left -/

/-- An argument the first region does not touch is, after that region, as launched. -/
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by untouched_by hostOps0
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by untouched_by hostOps0
    _ = m ((c : Thread nD τ).loc main_arg8) := rfl

theorem host1_v17_0 (c : Dev nD) : V3 m ρ c main_v17_0 = V2 m ρ c main_v17_0 := by
  show StableHlo.after hostOps1 (W2 m ρ c) (Proc.devRef .tc main_v17_0) = W2 m ρ c (Proc.devRef .tc main_v17_0)
  untouched_by hostOps1

open Idealize.ShloMosaic.StableHlo in
theorem host1_v26 (c : Dev nD) : (V3 m ρ c main_v26 : Mat 1 32) = meanK (V2 m ρ c main_v17_1) := by
  have e : (V3 m ρ c main_v26 : S1x32.Idx → EReal)
      = shapeCast S1x32 (Host.divf (F := Ideal) (φ := .f32) (shapeCast S32 (W2 m ρ c (Proc.devRef .tc main_v17_1) : S1x32.Idx → EReal) shapeCasts_S1x32_S32)
          (broadcastInDim S32 ![] bcast_S_S32 (constant (F := Ideal) S_ .f32 0x47435000#32))) shapeCasts_S32_S1x32 := by
    dsimp only [V3, W3, hostOps1]; after_results; rfl
  exact e.trans (mean_read _ _ _ _)

open Idealize.ShloMosaic.StableHlo in
theorem host1_v27 (c : Dev nD) : (V3 m ρ c main_v27 : Mat 1 32) = varK (V2 m ρ c main_v17_1) (V2 m ρ c main_v17_2) := by
  have e : (V3 m ρ c main_v27 : S1x32.Idx → EReal)
      = shapeCast S1x32
        (subf (F := Ideal) (φ := .f32)
          (Host.divf (shapeCast S32 (W2 m ρ c (Proc.devRef .tc main_v17_2) : S1x32.Idx → EReal) shapeCasts_S1x32_S32) (broadcastInDim S32 ![] bcast_S_S32 (constant (F := Ideal) S_ .f32 0x47435000#32)))
          (mulf
            (Host.divf (shapeCast S32 (W2 m ρ c (Proc.devRef .tc main_v17_1) : S1x32.Idx → EReal) shapeCasts_S1x32_S32) (broadcastInDim S32 ![] bcast_S_S32 (constant (F := Ideal) S_ .f32 0x47435000#32)))
            (Host.divf (shapeCast S32 (W2 m ρ c (Proc.devRef .tc main_v17_1) : S1x32.Idx → EReal) shapeCasts_S1x32_S32) (broadcastInDim S32 ![] bcast_S_S32 (constant (F := Ideal) S_ .f32 0x47435000#32)))))
        shapeCasts_S32_S1x32 := by
    dsimp only [V3, W3, hostOps1]; after_results; rfl
  exact e.trans (var_read _ _ _ _ _)

open Idealize.ShloMosaic.StableHlo in
theorem host1_v28 (c : Dev nD) : (V3 m ρ c main_v28 : Mat 1 32) = rowOf (m ((c : Thread nD τ).loc main_arg7)) := by
  have e : (V3 m ρ c main_v28 : S1x32.Idx → EReal)
      = shapeCast S1x32 (W2 m ρ c (Proc.devRef .tc main_arg7) : S32.Idx → EReal) shapeCasts_S32_S1x32 := by
    dsimp only [V3, W3, hostOps1]; after_results; rfl
  exact e.trans ((cast_row _ _).trans (congrArg rowOf (W2_arg7 m ρ c)))

open Idealize.ShloMosaic.StableHlo in
theorem host1_v29 (c : Dev nD) : (V3 m ρ c main_v29 : Mat 1 32) = rowOf (m ((c : Thread nD τ).loc main_arg8)) := by
  have e : (V3 m ρ c main_v29 : S1x32.Idx → EReal)
      = shapeCast S1x32 (W2 m ρ c (Proc.devRef .tc main_arg8) : S32.Idx → EReal) shapeCasts_S32_S1x32 := by
    dsimp only [V3, W3, hostOps1]; after_results; rfl
  exact e.trans ((cast_row _ _).trans (congrArg rowOf (W2_arg8 m ρ c)))

/-! ## Stretch 2, over what region 1 left

First two arguments no region has as a window and no host operation writes, read back to the launch. -/
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by untouched_by hostOps1
    _ = W1 m ρ c (Proc.devRef .tc main_arg10) := W2_of_ne m ρ c main_arg10 (by decide)
    _ = W0 m ρ c (Proc.devRef .tc main_arg10) := by untouched_by hostOps0
    _ = m ((c : Thread nD τ).loc main_arg10) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by untouched_by hostOps1
    _ = W1 m ρ c (Proc.devRef .tc main_arg12) := W2_of_ne m ρ c main_arg12 (by decide)
    _ = W0 m ρ c (Proc.devRef .tc main_arg12) := by untouched_by hostOps0
    _ = m ((c : Thread nD τ).loc main_arg12) := rfl

theorem host2_arg9 (c : Dev nD) : V5 m ρ c main_arg9 = m ((c : Thread nD τ).loc main_arg9) :=
  calc W5 m ρ c (Proc.devRef .tc main_arg9)
    _ = W4 m ρ c (Proc.devRef .tc main_arg9) := by untouched_by hostOps2
    _ = W3 m ρ c (Proc.devRef .tc main_arg9) := W4_of_ne m ρ c main_arg9 (by decide)
    _ = W2 m ρ c (Proc.devRef .tc main_arg9) := by untouched_by hostOps1
    _ = W1 m ρ c (Proc.devRef .tc main_arg9) := W2_of_ne m ρ c main_arg9 (by decide)
    _ = W0 m ρ c (Proc.devRef .tc main_arg9) := by untouched_by hostOps0
    _ = m ((c : Thread nD τ).loc main_arg9) := rfl

theorem host2_arg11 (c : Dev nD) : V5 m ρ c main_arg11 = m ((c : Thread nD τ).loc main_arg11) :=
  calc W5 m ρ c (Proc.devRef .tc main_arg11)
    _ = W4 m ρ c (Proc.devRef .tc main_arg11) := by untouched_by hostOps2
    _ = W3 m ρ c (Proc.devRef .tc main_arg11) := W4_of_ne m ρ c main_arg11 (by decide)
    _ = W2 m ρ c (Proc.devRef .tc main_arg11) := by untouched_by hostOps1
    _ = W1 m ρ c (Proc.devRef .tc main_arg11) := W2_of_ne m ρ c main_arg11 (by decide)
    _ = W0 m ρ c (Proc.devRef .tc main_arg11) := by untouched_by hostOps0
    _ = m ((c : Thread nD τ).loc main_arg11) := rfl

open Idealize.ShloMosaic.StableHlo in
theorem host2_v42 (c : Dev nD) : (V5 m ρ c main_v42 : Mat 1 32) = rowOf (m ((c : Thread nD τ).loc main_arg10)) := by
  have e : (V5 m ρ c main_v42 : S1x32.Idx → EReal)
      = shapeCast S1x32 (W4 m ρ c (Proc.devRef .tc main_arg10) : S32.Idx → EReal) shapeCasts_S32_S1x32 := by
    dsimp only [V5, W5, hostOps2]; after_results; rfl
  exact e.trans ((cast_row _ _).trans (congrArg rowOf (W4_main_arg10 m ρ c)))

open Idealize.ShloMosaic.StableHlo in
theorem host2_v43 (c : Dev nD) : (V5 m ρ c main_v43 : Mat 1 10) = rowOf (m ((c : Thread nD τ).loc main_arg12)) := by
  have e : (V5 m ρ c main_v43 : S1x10.Idx → EReal)
      = shapeCast S1x10 (W4 m ρ c (Proc.devRef .tc main_arg12) : S10.Idx → EReal) shapeCasts_S10_S1x10 := by
    dsimp only [V5, W5, hostOps2]; after_results; rfl
  exact e.trans ((cast_row _ _).trans (congrArg rowOf (W4_main_arg12 m ρ c)))

end Cert.KernelIdeal.KV

end
-- ==== Proof.KHostAgg.lean ====
/-
  The two aggregations over the edge list, as the host stretches of the idealized kernel program compute them.

  A node's features plus the sum of the features of its in-neighbours: the edge sources (a negative index wrapped
  once by the row count) select rows by a gather, and a scatter-add over the edge targets sums them into zeros. The
  first stretch does this to the 128-column input, the third to the 32-column output of the second region, reusing
  the source and target vectors the first stretch sliced out of the edge list. Both are, operation for operation,
  the reference program's own stages, so each is read as that stage (`val_main_v14`, `agg32`) of the array
  aggregated and the launched edge list; no gather or scatter is ever evaluated.
-/
import proofs.«153798_j29678224015468_1_alg».proof.Proof.Gen.KernelIdeal.Frame
import proofs.«153798_j29678224015468_1_alg».proof.Proof.Gen.ReferenceIdeal.Read
import proofs.«153798_j29678224015468_1_alg».proof.Proof.Spec
import proofs.«153798_j29678224015468_1_alg».proof.Proof.RefAgg
import proofs.«153798_j29678224015468_1_alg».proof.Proof.LibRowBias
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.IdealHost

noncomputable section

namespace Cert.KernelIdeal.KV

open Cert.KernelIdeal Cert.KernelIdeal.Gen Idealize.ShloMosaic Idealize.ShloMosaic.TcCoe Idealize.SL.Sem
open Idealize.ShloMosaic.Pipeline (Dat)
open Cert.Gin

variable (m : (ℓ : Loc nD τ sig) → Buf (Elt Ideal) ℓ) (ρ : Dev nD → PrngReg)

/-- A buffer that no operation of a host stretch writes keeps its contents across the stretch. -/
local macro "untouched_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first aggregation -/

open Idealize.ShloMosaic.StableHlo in
theorem host0_v14 (c : Dev nD) : (V1 m ρ c main_v14 : Mat 50000 128)
    = Cert.ReferenceIdeal.Read.val_main_v14 (F := Ideal) (m ((c : Thread nD τ).loc main_arg0)) (m ((c : Thread nD τ).loc main_arg1)) := by
  dsimp only [V1, W1, hostOps0]
  after_results_simp
  -- the reference's stage, opened down to the same operations on the same two arguments
  unfold Cert.ReferenceIdeal.Read.val_main_v14 Cert.ReferenceIdeal.Read.val_main_v13 Cert.ReferenceIdeal.Read.val_main_v12
    Cert.ReferenceIdeal.Read.val_main_v11 Cert.ReferenceIdeal.Read.val_main_cst Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_c_0 Cert.ReferenceIdeal.Read.val_main_v5
    Cert.ReferenceIdeal.Read.val_main_v4 Cert.ReferenceIdeal.Read.val_main_c Cert.ReferenceIdeal.Read.val_main_v3
    Cert.ReferenceIdeal.Read.val_main_v2 Cert.ReferenceIdeal.Read.val_main_v1 Cert.ReferenceIdeal.Read.val_main_v0
  rfl

/-! ## The edge sources and targets the first stretch computes -/

open Idealize.ShloMosaic.StableHlo in
/-- The source vertices of the edges, as the first stretch leaves them: the first row of the edge list. -/
theorem W1_v1 (c : Dev nD) : W1 m ρ c (Proc.devRef .tc main_v1)
    = Cert.ReferenceIdeal.Read.val_main_v1 (F := Ideal) (m ((c : Thread nD τ).loc main_arg1)) := by
  dsimp only [W1, hostOps0]
  after_results_simp
  unfold Cert.ReferenceIdeal.Read.val_main_v1 Cert.ReferenceIdeal.Read.val_main_v0
  rfl

open Idealize.ShloMosaic.StableHlo in
/-- The target vertices of the edges, as the first stretch leaves them: the second row of the edge list. -/
theorem W1_v3 (c : Dev nD) : W1 m ρ c (Proc.devRef .tc main_v3)
    = Cert.ReferenceIdeal.Read.val_main_v3 (F := Ideal) (m ((c : Thread nD τ).loc main_arg1)) := by
  dsimp only [W1, hostOps0]
  after_results_simp
  unfold Cert.ReferenceIdeal.Read.val_main_v3 Cert.ReferenceIdeal.Read.val_main_v2
  rfl

/-- Neither the first two regions nor the second stretch touch the sources. -/
theorem W4_v1 (c : Dev nD) : W4 m ρ c (Proc.devRef .tc main_v1)
    = Cert.ReferenceIdeal.Read.val_main_v1 (F := Ideal) (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by untouched_by hostOps1
    _ = W1 m ρ c (Proc.devRef .tc main_v1) := W2_of_ne m ρ c main_v1 (by decide)
    _ = _ := W1_v1 m ρ c

/-- Nor the targets. -/
theorem W4_v3 (c : Dev nD) : W4 m ρ c (Proc.devRef .tc main_v3)
    = Cert.ReferenceIdeal.Read.val_main_v3 (F := Ideal) (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by untouched_by hostOps1
    _ = W1 m ρ c (Proc.devRef .tc main_v3) := W2_of_ne m ρ c main_v3 (by decide)
    _ = _ := W1_v3 m ρ c

/-! ## The second aggregation -/

/-- The third stretch's aggregation as ONE function of the array it aggregates, the edge sources and the edge
    targets: the array plus the scatter-add, over the targets, of its rows gathered at the sources (a negative source
    wrapped once by the row count). -/
def aggK (z : (⟨S50000x32, .f32⟩ : BufTy).Contents (Elt Ideal)) (src tgt : (⟨S800000, .i32⟩ : BufTy).Contents (Elt Ideal)) :
    (⟨S50000x32, .f32⟩ : BufTy).Contents (Elt Ideal) :=
  addf z (Host.scatterAdd scatter_S50000x32_S800000x1_S800000x32_1_0_0_1
    (broadcastInDim S50000x32 ![] bcast_S_S50000x32 (constant (F := Ideal) S_ .f32 0x00000000#32))
    (broadcastInDim S800000x1 ![0] bcast_S800000_S800000x1_0 tgt)
    (Host.gather gather_S50000x32_S800000x1_S800000x32_1_0_n_n_0_1_132 z
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src))))

/-- At the reference's sources and targets it is the reference's aggregation: the same operations, literal for
    literal. -/
theorem aggK_eq (z : (⟨S50000x32, .f32⟩ : BufTy).Contents (Elt Ideal))
    (x1 : (⟨Cert.ReferenceIdeal.S2x800000, .i32⟩ : BufTy).Contents (Elt Ideal)) :
    aggK z (Cert.ReferenceIdeal.Read.val_main_v1 (F := Ideal) x1) (Cert.ReferenceIdeal.Read.val_main_v3 (F := Ideal) x1)
      = Cert.ReferenceIdeal.Agg.agg32 (F := Ideal) z x1 := by
  unfold aggK Cert.ReferenceIdeal.Agg.agg32 Cert.ReferenceIdeal.Read.val_main_v60 Cert.ReferenceIdeal.Read.val_main_v59 Cert.ReferenceIdeal.Read.val_main_cst_10 Cert.ReferenceIdeal.Read.val_main_v57
    Cert.ReferenceIdeal.Read.val_main_v56 Cert.ReferenceIdeal.Read.val_main_v55 Cert.ReferenceIdeal.Read.val_main_v54 Cert.ReferenceIdeal.Read.val_main_c_9 Cert.ReferenceIdeal.Read.val_main_v53 Cert.ReferenceIdeal.Read.val_main_v52 Cert.ReferenceIdeal.Read.val_main_c_8
  rfl

open Idealize.ShloMosaic.StableHlo in
theorem host2_v41 (c : Dev nD) : (V5 m ρ c main_v41 : Mat 50000 32)
    = Cert.ReferenceIdeal.Agg.agg32 (F := Ideal) (V4 m ρ c main_v30) (m ((c : Thread nD τ).loc main_arg1)) := by
  have e : V5 m ρ c main_v41
      = aggK (W4 m ρ c (Proc.devRef .tc main_v30)) (W4 m ρ c (Proc.devRef .tc main_v1)) (W4 m ρ c (Proc.devRef .tc main_v3)) := by
    dsimp only [V5, W5, hostOps2]; after_results_simp; rfl
  exact e.trans ((congrArg₂ (aggK (W4 m ρ c (Proc.devRef .tc main_v30))) (W4_v1 m ρ c) (W4_v3 m ρ c)).trans (aggK_eq _ _))

end Cert.KernelIdeal.KV

end
-- ==== Proof.KValue.lean ====
/-
  The idealized kernel's result array as ONE function of its arguments.

  The program is three grids of row blocks among stretches of host operations. Unwinding from the end: the
  result is the last grid's output array, the second pair of dense layers of what the third stretch leaves — the
  edge aggregation of the second grid's output, the normalised features —; those are the normalisation of the
  first grid's first output (the first pair of dense layers of the aggregated input) by the mean and the variance
  the second stretch forms from the first grid's two accumulated column sums. Composed, this is the network
  `Cert.Gin.out` with the statistics `statK`: variance as the mean of the squares less the square of the mean.
-/
import proofs.«153798_j29678224015468_1_alg».proof.Proof.KReg0
import proofs.«153798_j29678224015468_1_alg».proof.Proof.KReg1
import proofs.«153798_j29678224015468_1_alg».proof.Proof.KReg2
import proofs.«153798_j29678224015468_1_alg».proof.Proof.KHost
import proofs.«153798_j29678224015468_1_alg».proof.Proof.KHostAgg
import proofs.«153798_j29678224015468_1_alg».proof.Proof.Spec
import proofs.«153798_j29678224015468_1_alg».proof.Proof.RefAgg

noncomputable section

namespace Cert.KernelIdeal.KV

open Cert.KernelIdeal Cert.KernelIdeal.Gen Idealize.ShloMosaic Idealize.ShloMosaic.TcCoe Idealize.SL.Sem
open Idealize.ShloMosaic.Pipeline (Dat)
open Cert.Gin

variable (m : (ℓ : Loc nD τ sig) → Buf (Elt Ideal) ℓ) (ρ : Dev nD → PrngReg)

/-- The first grid's three output arrays, from the launch memory: the dense layers of the aggregated input, and
    the column sums of that array and of its squares. -/
theorem after_region0 (c : Dev nD) :
    (V2 m ρ c main_v17_0 : Mat 50000 32)
        = mlp1 (Cert.ReferenceIdeal.Read.val_main_v14 (F := Ideal) (m ((c : Thread nD τ).loc main_arg0)) (m ((c : Thread nD τ).loc main_arg1)))
            (m ((c : Thread nD τ).loc main_arg3)) (rowOf (m ((c : Thread nD τ).loc main_arg4))) (m ((c : Thread nD τ).loc main_arg5)) (rowOf (m ((c : Thread nD τ).loc main_arg6)))
    ∧ (V2 m ρ c main_v17_1 : Mat 1 32)
        = colSum (mlp1 (Cert.ReferenceIdeal.Read.val_main_v14 (F := Ideal) (m ((c : Thread nD τ).loc main_arg0)) (m ((c : Thread nD τ).loc main_arg1)))
            (m ((c : Thread nD τ).loc main_arg3)) (rowOf (m ((c : Thread nD τ).loc main_arg4))) (m ((c : Thread nD τ).loc main_arg5)) (rowOf (m ((c : Thread nD τ).loc main_arg6))))
    ∧ (V2 m ρ c main_v17_2 : Mat 1 32)
        = colSumSq (mlp1 (Cert.ReferenceIdeal.Read.val_main_v14 (F := Ideal) (m ((c : Thread nD τ).loc main_arg0)) (m ((c : Thread nD τ).loc main_arg1)))
            (m ((c : Thread nD τ).loc main_arg3)) (rowOf (m ((c : Thread nD τ).loc main_arg4))) (m ((c : Thread nD τ).loc main_arg5)) (rowOf (m ((c : Thread nD τ).loc main_arg6)))) := by
  refine ⟨?_, ?_, ?_⟩
  · refine ((hF0 m ρ c 5).symm.trans (region0_h1 (V1 m ρ) c)).trans ?_
    rw [host0_v14 m ρ c, host0_arg3 m ρ c, host0_v15 m ρ c, host0_arg5 m ρ c, host0_v16 m ρ c]
  · refine ((hF0 m ρ c 6).symm.trans (region0_sum (V1 m ρ) c)).trans ?_
    rw [host0_v14 m ρ c, host0_arg3 m ρ c, host0_v15 m ρ c, host0_arg5 m ρ c, host0_v16 m ρ c]
  · refine ((hF0 m ρ c 7).symm.trans (region0_sumsq (V1 m ρ) c)).trans ?_
    rw [host0_v14 m ρ c, host0_arg3 m ρ c, host0_v15 m ρ c, host0_arg5 m ρ c, host0_v16 m ρ c]

/-- The second grid's output array: the first grid's features normalised by the statistics of the accumulated
    sums. -/
theorem after_region1 (c : Dev nD) :
    (V4 m ρ c main_v30 : Mat 50000 32)
      = bn (V2 m ρ c main_v17_0) (meanK (V2 m ρ c main_v17_1)) (varK (V2 m ρ c main_v17_1) (V2 m ρ c main_v17_2))
          (rowOf (m ((c : Thread nD τ).loc main_arg7))) (rowOf (m ((c : Thread nD τ).loc main_arg8))) := by
  refine ((hF1 m ρ c 5).symm.trans (region1_value (V3 m ρ) c)).trans ?_
  rw [host1_v17_0 m ρ c, host1_v26 m ρ c, host1_v27 m ρ c, host1_v28 m ρ c, host1_v29 m ρ c]

/-- The result array: the second pair of dense layers of the aggregated normalised features. -/
theorem after_region2 (c : Dev nD) :
    (W6 m ρ c (Proc.devRef .tc main_v44) : Mat 50000 10)
      = mlp2 (Cert.ReferenceIdeal.Agg.agg32 (F := Ideal) (V4 m ρ c main_v30) (m ((c : Thread nD τ).loc main_arg1)))
          (m ((c : Thread nD τ).loc main_arg9)) (rowOf (m ((c : Thread nD τ).loc main_arg10))) (m ((c : Thread nD τ).loc main_arg11)) (rowOf (m ((c : Thread nD τ).loc main_arg12))) := by
  refine ((W6_arr m ρ c 5).trans (region2_value (V5 m ρ) c)).trans ?_
  rw [host2_v41 m ρ c, host2_arg9 m ρ c, host2_v42 m ρ c, host2_arg11 m ρ c, host2_v43 m ρ c]

/-- THE KERNEL'S VALUE: its result array is the network of its arguments with the statistics `statK`. -/
theorem kernel_value (c : Dev nD) :
    (W6 m ρ c (Proc.devRef .tc main_v44) : Mat 50000 10)
      = out statK (fun x => Cert.ReferenceIdeal.Read.val_main_v14 (F := Ideal) x (m ((c : Thread nD τ).loc main_arg1)))
          (fun z => Cert.ReferenceIdeal.Agg.agg32 (F := Ideal) z (m ((c : Thread nD τ).loc main_arg1)))
          (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10)) (m ((c : Thread nD τ).loc main_arg11)) (m ((c : Thread nD τ).loc main_arg12)) := by
  obtain ⟨e0, e1, e2⟩ := after_region0 m ρ c
  rw [after_region2 m ρ c, after_region1 m ρ c, e0, e1, e2]
  rfl

end Cert.KernelIdeal.KV

end
-- ==== Proof.KRun.lean ====
/-
  The run of the idealized kernel program with its result array named.

  From any launch memory with zero counters every weakly fair execution of the program on the TensorCores ends,
  and in every final state the result buffer holds what the last boundary's contents `W6` assign to it, while each
  of the thirteen argument buffers holds what it held at launch. The argument is the library's launch kit over the
  generated segments, with the final thread state "every unscoped buffer at `W6`" read at one more buffer: the
  result's.
-/
import proofs.«153798_j29678224015468_1_alg».proof.Proof.Gen.KernelIdeal.Frame
import Idealize.ShloMosaic.PureOps.Ideal

set_option maxRecDepth 16384

noncomputable section

namespace Cert.KernelIdeal.KV

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's conclusion meets this statement only up to unfolding plain definitions inside types
set_option backward.isDefEq.respectTransparency.types false in
/-- Every weakly fair execution from `m` ends with the result buffer at `W6`'s contents and the arguments as launched. -/
theorem run_named : θ_run defs (onTc (τ := τ) (main (F := Ideal))) ⟨m, fun _ => 0, ρ⟩ (fun r => ∀ c : Dev nD,
      r.2.mem ((c.tc : Thread nD τ).loc main_v44) = W6 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.KV

end
-- ==== Proof.RefValue.lean ====
/-
  The reference program's result, entry by entry, is the network of the specification with the statistics a host
  reduction states.

  The program is read one stage at a time. The first aggregation is kept as the opaque array it is. On it the two
  dense layers with their rectifiers are, at entry (p, q), the two nested sums of `mlp1At`: a bias vector reaches the
  entry through a one-row matrix broadcast down the rows, so entry (p, q) sees the bias at q. The column mean is the
  sum over the 50000 rows started from the zero word and divided by the word of 50000; the variance is the mean, taken
  in the same way, of the squared deviations from that mean. The normalisation then reads the two statistics, the
  scale and the shift at the entry's column. The second aggregation is the named function of the normalised array,
  and the last two dense layers are `mlp2At` of it. Composing the five equations gives `out statR`.
-/
import proofs.«153798_j29678224015468_1_alg».proof.Proof.Gen.ReferenceIdeal.Read
import proofs.«153798_j29678224015468_1_alg».proof.Proof.Spec
import proofs.«153798_j29678224015468_1_alg».proof.Proof.RefAgg

noncomputable section

namespace Cert.ReferenceIdeal.RefValue

open Cert.ReferenceIdeal Cert.ReferenceIdeal.Gen Cert.ReferenceIdeal.Read Idealize.ShloMosaic
open Cert.Gin

open Idealize.ShloMosaic.ValueIdx

/-- Both dense layers and both rectifiers on the aggregated features: entry (p, q) contracts the aggregated row p
    with the first weight matrix, adds the first bias at the hidden column, clips at zero, contracts with column q of
    the second weight matrix, adds the second bias at q and clips at zero. -/
theorem v26_eq (x0 : (⟨S50000x128, .f32⟩ : BufTy).Contents (Elt Ideal)) (x1 : (⟨S2x800000, .i32⟩ : BufTy).Contents (Elt Ideal))
    (x3 : (⟨S128x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal)) :
    (val_main_v26 (F := Ideal) x0 x1 x3 x4 x5 x6 : Mat 50000 32)
      = mlp1 (val_main_v14 (F := Ideal) x0 x1) x3 (rowOf x4) x5 (rowOf x6) := by
  funext i
  obtain ⟨p, q, rfl⟩ : ∃ (p : Fin 50000) (q : Fin 32), i = ix2 p q := ⟨_, _, eq_ix2 i⟩
  rw [mlp1_apply]
  simp only [val_main_v26_apply, val_main_v24_apply, val_main_v21_apply, val_main_v20_apply, val_main_v18_apply,
    val_main_v15_apply, val_main_v17_apply, val_main_v16_apply, val_main_v19_apply, val_main_cst_1_apply,
    val_main_v23_apply, val_main_v22_apply, val_main_v25_apply, val_main_cst_2_apply]
  generalize val_main_v14 (F := Ideal) x0 x1 = h
  have e1 : ∀ (k : Fin 32) (j : Fin 128), lidx_main_v15 (lidx_main_v21 (ix2 p q) k) j = ix2 p j := fun k j =>
    funext fun a => Fin.ext (by match a with | ⟨0, _⟩ => rfl | ⟨1, _⟩ => rfl)
  have e2 : ∀ (k : Fin 32) (j : Fin 128), ridx_main_v15 (lidx_main_v21 (ix2 p q) k) j = ix2 j k := fun k j =>
    funext fun a => Fin.ext (by match a with | ⟨0, _⟩ => rfl | ⟨1, _⟩ => rfl)
  have e3 : ∀ (k : Fin 32), idx_main_v16 (idx_main_v17 (lidx_main_v21 (ix2 p q) k)) = ix1 k := fun k =>
    funext fun a => Fin.ext (by match a with | ⟨0, _⟩ => rfl)
  have e4 : ∀ (k : Fin 32), ridx_main_v21 (ix2 p q) k = ix2 k q := fun k =>
    funext fun a => Fin.ext (by match a with | ⟨0, _⟩ => rfl | ⟨1, _⟩ => rfl)
  have e5 : idx_main_v22 (idx_main_v23 (ix2 p q)) = ix1 q :=
    funext fun a => Fin.ext (by match a with | ⟨0, _⟩ => rfl)
  simp only [e1, e2, e3, e4, e5, Ideal.maximumf_def, Ideal.addf_def, Ideal.ofBits_def]
  rfl

/-- The mean of column q: the rows' sum, started from the zero word, over the word of the row count. -/
theorem v29_eq (x0 : (⟨S50000x128, .f32⟩ : BufTy).Contents (Elt Ideal)) (x1 : (⟨S2x800000, .i32⟩ : BufTy).Contents (Elt Ideal))
    (x3 : (⟨S128x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal)) (q : Fin 32) :
    val_main_v29 (F := Ideal) x0 x1 x3 x4 x5 x6 (ix1 q)
      = meanR (val_main_v26 (F := Ideal) x0 x1 x3 x4 x5 x6) (ix2 (0 : Fin 1) q) := by
  simp only [val_main_v29_apply, val_main_v27_apply, val_main_v28_apply, val_main_cst_3_apply, val_main_cst_4_apply]
  generalize val_main_v26 (F := Ideal) x0 x1 x3 x4 x5 x6 = z
  have e : ∀ r : Fin 50000, idx_main_v27 (ix1 q) r = ix2 r q := fun r =>
    funext fun a => Fin.ext (by match a with | ⟨0, _⟩ => rfl | ⟨1, _⟩ => rfl)
  simp only [e, Ideal.hostDivf_def, Ideal.ofBits_def]
  rfl

/-- The variance of column q: the mean, taken the same way, of the squared deviations from the column's mean. -/
theorem v36_eq (x0 : (⟨S50000x128, .f32⟩ : BufTy).Contents (Elt Ideal)) (x1 : (⟨S2x800000, .i32⟩ : BufTy).Contents (Elt Ideal))
    (x3 : (⟨S128x32, .f32⟩ : BufTy).Contents (Elt Ideal)) (x4 : (⟨S32, .f32⟩ : BufTy).Contents (Elt Ideal))
    (x5 : (⟨S32x32, .f32⟩ : BufTy).Contents (Elt Ideal)) (x6 : (⟨S32, .f32⟩ : BufTy).Contents (Elt Ideal)) (q : Fin 32) :
    val_main_v36 (F := Ideal) x0 x1 x3 x4 x5 x6 (ix1 q)
      = varR (val_main_v26 (F := Ideal) x0 x1 x3 x4 x5 x6) (ix2 (0 : Fin 1) q) := by
  have e1 : ∀ r : Fin 50000, idx_main_v34 (ix1 q) r = ix2 r q := fun r =>
    funext fun a => Fin.ext (by match a with | ⟨0, _⟩ => rfl | ⟨1, _⟩ => rfl)
  have e2 : ∀ r : Fin 50000, idx_main_v30 (idx_main_v31 (ix2 r q)) = ix1 q := fun r =>
    funext fun a => Fin.ext (by match a with | ⟨0, _⟩ => rfl)
  simp only [val_main_v36_apply, val_main_v34_apply, val_main_v35_apply, val_main_cst_5_apply, val_main_cst_6_apply,
    val_main_v33_apply, val_main_v32_apply, val_main_v31_apply, val_main_v30_apply, e1, e2, v29_eq]
  generalize val_main_v26 (F := Ideal) x0 x1 x3 x4 x5 x6 = z
  simp only [Ideal.hostDivf_def, Ideal.ofBits_def, Ideal.mulf_def, Ideal.subf_def]
  rfl

/-- The normalisation: entry (p, q) is the deviation from column q's mean, times the reciprocal root of the column's
    variance plus the stabiliser, times the scale at q, plus the shift at q. -/
theorem v51_eq (x0 : (⟨S50000x128, .f32⟩ : BufTy).Contents (Elt Ideal)) (x1 : (⟨S2x800000, .i32⟩ : BufTy).Contents (Elt Ideal))
    (x3 : (⟨S128x32, .f32⟩ : BufTy).Contents (Elt Ideal)) (x4 : (⟨S32, .f32⟩ : BufTy).Contents (Elt Ideal))
    (x5 : (⟨S32x32, .f32⟩ : BufTy).Contents (Elt Ideal)) (x6 x7 x8 : (⟨S32, .f32⟩ : BufTy).Contents (Elt Ideal)) :
    (val_main_v51 (F := Ideal) x0 x1 x3 x4 x5 x6 x7 x8 : Mat 50000 32)
      = bn (val_main_v26 (F := Ideal) x0 x1 x3 x4 x5 x6) (meanR (val_main_v26 (F := Ideal) x0 x1 x3 x4 x5 x6))
          (varR (val_main_v26 (F := Ideal) x0 x1 x3 x4 x5 x6)) (rowOf x7) (rowOf x8) := by
  funext i
  obtain ⟨p, q, rfl⟩ : ∃ (p : Fin 50000) (q : Fin 32), i = ix2 p q := ⟨_, _, eq_ix2 i⟩
  rw [bn_apply]
  have e1 : idx_main_v37 (idx_main_v38 (ix2 p q)) = ix1 q :=
    funext fun a => Fin.ext (by match a with | ⟨0, _⟩ => rfl)
  have e2 : idx_main_v43 (idx_main_v44 (ix2 p q)) = ix1 q :=
    funext fun a => Fin.ext (by match a with | ⟨0, _⟩ => rfl)
  have e3 : idx_main_v46 (idx_main_v47 (ix2 p q)) = ix1 q :=
    funext fun a => Fin.ext (by match a with | ⟨0, _⟩ => rfl)
  have e4 : idx_main_v49 (idx_main_v50 (ix2 p q)) = ix1 q :=
    funext fun a => Fin.ext (by match a with | ⟨0, _⟩ => rfl)
  simp only [val_main_v51_apply, val_main_v48_apply, val_main_v50_apply, val_main_v49_apply, val_main_v45_apply,
    val_main_v47_apply, val_main_v46_apply, val_main_v39_apply, val_main_v44_apply, val_main_v43_apply,
    val_main_v42_apply, val_main_v41_apply, val_main_v40_apply, val_main_cst_7_apply, val_main_v38_apply,
    val_main_v37_apply, e1, e2, e3, e4, v29_eq, v36_eq]
  generalize val_main_v26 (F := Ideal) x0 x1 x3 x4 x5 x6 = z
  simp only [Ideal.addf_def, Ideal.mulf_def, Ideal.subf_def, Ideal.hostUnary_rsqrt_def, Ideal.ofBits_def]
  rfl

/-- The last two dense layers on the second aggregation: entry (p, q) contracts row p with the third weight matrix,
    adds the third bias, clips at zero, contracts with column q of the fourth weight matrix and adds the fourth bias. -/
theorem v72_eq (x0 : (⟨S50000x128, .f32⟩ : BufTy).Contents (Elt Ideal)) (x1 : (⟨S2x800000, .i32⟩ : BufTy).Contents (Elt Ideal))
    (x3 : (⟨S128x32, .f32⟩ : BufTy).Contents (Elt Ideal)) (x4 : (⟨S32, .f32⟩ : BufTy).Contents (Elt Ideal))
    (x5 : (⟨S32x32, .f32⟩ : BufTy).Contents (Elt Ideal)) (x6 x7 x8 : (⟨S32, .f32⟩ : BufTy).Contents (Elt Ideal))
    (x9 : (⟨S32x32, .f32⟩ : BufTy).Contents (Elt Ideal)) (x10 : (⟨S32, .f32⟩ : BufTy).Contents (Elt Ideal))
    (x11 : (⟨S32x10, .f32⟩ : BufTy).Contents (Elt Ideal)) (x12 : (⟨S10, .f32⟩ : BufTy).Contents (Elt Ideal)) :
    (val_main_v72 (F := Ideal) x0 x1 x3 x4 x5 x6 x7 x8 x9 x10 x11 x12 : Mat 50000 10)
      = mlp2 (val_main_v62 (F := Ideal) x0 x1 x3 x4 x5 x6 x7 x8) x9 (rowOf x10) x11 (rowOf x12) := by
  funext i
  obtain ⟨p, q, rfl⟩ : ∃ (p : Fin 50000) (q : Fin 10), i = ix2 p q := ⟨_, _, eq_ix2 i⟩
  rw [mlp2_apply]
  simp only [val_main_v72_apply, val_main_v69_apply, val_main_v68_apply, val_main_v66_apply, val_main_v63_apply,
    val_main_v65_apply, val_main_v64_apply, val_main_v67_apply, val_main_cst_11_apply, val_main_v71_apply,
    val_main_v70_apply]
  generalize val_main_v62 (F := Ideal) x0 x1 x3 x4 x5 x6 x7 x8 = h
  have e1 : ∀ (k j : Fin 32), lidx_main_v63 (lidx_main_v69 (ix2 p q) k) j = ix2 p j := fun k j =>
    funext fun a => Fin.ext (by match a with | ⟨0, _⟩ => rfl | ⟨1, _⟩ => rfl)
  have e2 : ∀ (k j : Fin 32), ridx_main_v63 (lidx_main_v69 (ix2 p q) k) j = ix2 j k := fun k j =>
    funext fun a => Fin.ext (by match a with | ⟨0, _⟩ => rfl | ⟨1, _⟩ => rfl)
  have e3 : ∀ (k : Fin 32), idx_main_v64 (idx_main_v65 (lidx_main_v69 (ix2 p q) k)) = ix1 k := fun k =>
    funext fun a => Fin.ext (by match a with | ⟨0, _⟩ => rfl)
  have e4 : ∀ (k : Fin 32), ridx_main_v69 (ix2 p q) k = ix2 k q := fun k =>
    funext fun a => Fin.ext (by match a with | ⟨0, _⟩ => rfl | ⟨1, _⟩ => rfl)
  have e5 : idx_main_v70 (idx_main_v71 (ix2 p q)) = ix1 q :=
    funext fun a => Fin.ext (by match a with | ⟨0, _⟩ => rfl)
  simp only [e1, e2, e3, e4, e5, Ideal.maximumf_def, Ideal.addf_def, Ideal.ofBits_def]
  rfl

/-- The reference's result is the network with the host's statistics. -/
theorem ref_out (x0 : (⟨S50000x128, .f32⟩ : BufTy).Contents (Elt Ideal)) (x1 : (⟨S2x800000, .i32⟩ : BufTy).Contents (Elt Ideal))
    (x3 : (⟨S128x32, .f32⟩ : BufTy).Contents (Elt Ideal)) (x4 : (⟨S32, .f32⟩ : BufTy).Contents (Elt Ideal))
    (x5 : (⟨S32x32, .f32⟩ : BufTy).Contents (Elt Ideal)) (x6 x7 x8 : (⟨S32, .f32⟩ : BufTy).Contents (Elt Ideal))
    (x9 : (⟨S32x32, .f32⟩ : BufTy).Contents (Elt Ideal)) (x10 : (⟨S32, .f32⟩ : BufTy).Contents (Elt Ideal))
    (x11 : (⟨S32x10, .f32⟩ : BufTy).Contents (Elt Ideal)) (x12 : (⟨S10, .f32⟩ : BufTy).Contents (Elt Ideal)) :
    (val_main_v72 (F := Ideal) x0 x1 x3 x4 x5 x6 x7 x8 x9 x10 x11 x12 : Mat 50000 10)
      = out statR (fun x => val_main_v14 (F := Ideal) x x1) (fun z => Cert.ReferenceIdeal.Agg.agg32 (F := Ideal) z x1)
          x0 x3 x4 x5 x6 x7 x8 x9 x10 x11 x12 := by
  rw [v72_eq, Cert.ReferenceIdeal.Agg.val_main_v62_eq_agg32, v51_eq, v26_eq]
  rfl

end Cert.ReferenceIdeal.RefValue

end
-- ==== Proof.LibReal.lean ====
/-
  The real-number layer under the extended reals.

  An extended real is REAL when it is the image of a real number (neither infinity).  Sums, products, differences,
  maxima, quotients by a nonzero real and reciprocal square roots of positive reals of real values are real; the three
  float words the programs spell denote real numbers.  On real values the extended-real arithmetic is the arithmetic
  of the reals, so the textbook identity

      (1/N) ∑ (z r - m)² = (1/N) ∑ (z r)² - m²,      m = (1/N) ∑ z r,   N = the number of terms,

  holds for extended reals z r that are all real (it fails at the infinities, where a difference may be junk), and
  its left side is the image of a nonnegative real.
-/
import Mathlib.Data.EReal.Operations
import Mathlib.Data.EReal.Inv
import Mathlib.Analysis.SpecialFunctions.Pow.Real
import Idealize.ShloMosaic.PureOps.Ideal
import Idealize.ShloMosaic.PureOps.Ideal.Laws

noncomputable section

open scoped BigOperators

namespace Cert.Lib

open Idealize.ShloMosaic

/-- An extended real that is the image of a real number. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real value is neither infinity. -/
theorem IsReal.ne_top {x : EReal} (h : IsReal x) : x ≠ ⊤ := by
  obtain ⟨a, rfl⟩ := h; exact EReal.coe_ne_top a

theorem IsReal.ne_bot {x : EReal} (h : IsReal x) : x ≠ ⊥ := by
  obtain ⟨a, rfl⟩ := h; exact EReal.coe_ne_bot a

/-- An extended real that is neither infinity is real. -/
theorem isReal_of_ne {x : EReal} (hb : x ≠ ⊥) (ht : x ≠ ⊤) : IsReal x := by
  induction x using EReal.rec with
  | bot => exact absurd rfl hb
  | coe a => exact ⟨a, rfl⟩
  | top => exact absurd rfl ht

/-- The sum of two real values is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real values is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negation of a real value is real. -/
theorem IsReal.neg {x : EReal} (hx : IsReal x) : IsReal (-x) := by
  obtain ⟨a, rfl⟩ := hx; exact ⟨-a, (EReal.coe_neg a).symm⟩

/-- The difference of two real values is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The maximum of two real values is real. -/
theorem IsReal.max {x y : EReal} (hx : IsReal x) (hy : IsReal y) : IsReal (max x y) := by
  rcases le_total x y with h | h
  · rw [max_eq_right h]; exact hy
  · rw [max_eq_left h]; exact hx

/-- The minimum of two real values is real. -/
theorem IsReal.min {x y : EReal} (hx : IsReal x) (hy : IsReal y) : IsReal (min x y) := by
  rcases le_total x y with h | h
  · rw [min_eq_left h]; exact hx
  · rw [min_eq_right h]; exact hy

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real values is real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A sum of real values over a whole finite type is real. -/
theorem IsReal.sum_univ {ι : Type*} [Fintype ι] (f : ι → EReal) (h : ∀ i, IsReal (f i)) :
    IsReal (∑ i, f i) := IsReal.sum _ f fun i _ => h i

/-- The quotient of the images of two reals, the divisor nonzero, is the image of the quotient. -/
theorem div_coe_coe (a : ℝ) {d : ℝ} (hd : d ≠ 0) :
    Ideal.div (a : EReal) (d : EReal) = ((a / d : ℝ) : EReal) := by
  rw [Ideal.div_coe hd, ← EReal.coe_mul, mul_one_div]

/-- The quotient of a real value by a nonzero real is real. -/
theorem IsReal.div_coe {x : EReal} (hx : IsReal x) {d : ℝ} (hd : d ≠ 0) : IsReal (Ideal.div x (d : EReal)) := by
  obtain ⟨a, rfl⟩ := hx; exact ⟨a / d, div_coe_coe a hd⟩

/-- The reciprocal square root of a positive real is the image of the reciprocal of its square root. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

/-- The reciprocal square root of a positive real is real. -/
theorem isReal_rsqrt_pos {v : ℝ} (hv : 0 < v) : IsReal (Ideal.rsqrt (v : EReal)) :=
  ⟨_, rsqrt_coe_pos hv⟩

/-- The reciprocal square root of a nonnegative real plus a positive real is real. -/
theorem isReal_rsqrt_add_pos {v e : ℝ} (hv : 0 ≤ v) (he : 0 < e) :
    IsReal (Ideal.rsqrt ((v : EReal) + (e : EReal))) := by
  rw [← EReal.coe_add]; exact isReal_rsqrt_pos (by linarith)

/-- The word `0x47435000` denotes the real `50000`. -/
theorem ofBits_50000 : Ideal.ofBits .f32 0x47435000#32 = ((50000 : ℝ) : EReal) := by
  simp [Ideal.ofBits, Ideal.ieee, -EReal.coe_mul]; norm_num

/-- The word `0x3727C5AC` (about `1e-5`) denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The word `0x3727C5AC` denotes a real. -/
theorem isReal_ofBits_eps : IsReal (Ideal.ofBits .f32 0x3727C5AC#32) := by
  obtain ⟨e, _, h⟩ := ofBits_eps_pos; exact ⟨e, h⟩

/-- The word `0x47435000` denotes a real. -/
theorem isReal_ofBits_50000 : IsReal (Ideal.ofBits .f32 0x47435000#32) := ⟨_, ofBits_50000⟩

/-- The word `0x00000000` denotes a real (zero). -/
theorem isReal_ofBits_zero : IsReal (Ideal.ofBits .f32 0x00000000#32) := by
  rw [Ideal.ofBits_zero_f32]; exact isReal_zero

/-- Real witnesses of a family of real values. -/
theorem exists_real_family {ι : Type*} (z : ι → EReal) (hz : ∀ r, IsReal (z r)) :
    ∃ w : ι → ℝ, z = fun r => (w r : EReal) := by
  choose w hw using hz; exact ⟨w, funext hw⟩

/-- The identity among reals: the mean of the squared deviations from the mean is the mean of the squares less the
    square of the mean, when the divisor is the number of terms. -/
theorem real_var_identity {n : ℕ} (w : Fin n → ℝ) (N : ℝ) (hN : N ≠ 0) (hn : (n : ℝ) = N) :
    (∑ r, (w r - (∑ r, w r) / N) * (w r - (∑ r, w r) / N)) / N
      = (∑ r, w r * w r) / N - (∑ r, w r) / N * ((∑ r, w r) / N) := by
  have h1 : ∑ r, (w r - (∑ r, w r) / N) * (w r - (∑ r, w r) / N)
      = (∑ r, w r * w r) - 2 * ((∑ r, w r) / N) * (∑ r, w r) + N * ((∑ r, w r) / N * ((∑ r, w r) / N)) := by
    have h2 : ∀ r, (w r - (∑ r, w r) / N) * (w r - (∑ r, w r) / N)
        = w r * w r - 2 * ((∑ r, w r) / N) * w r + (∑ r, w r) / N * ((∑ r, w r) / N) := fun r => by ring
    simp only [h2]
    rw [Finset.sum_add_distrib, Finset.sum_sub_distrib, ← Finset.mul_sum, Finset.sum_const, Finset.card_univ,
      Fintype.card_fin, nsmul_eq_mul, hn]
  rw [h1]; field_simp; ring

/-- The variance identity on the extended reals, for real entries: with `mean = (∑ z) / N` and `N` the number of
    entries, `(∑ (z - mean)²) / N = (∑ z²) / N - mean²`. -/
theorem var_identity {n : ℕ} (z : Fin n → EReal) (hz : ∀ r, IsReal (z r)) (N : ℝ) (hN : N ≠ 0) (hn : (n : ℝ) = N) :
    Ideal.div (∑ r, (z r - Ideal.div (∑ r, z r) (N : EReal)) * (z r - Ideal.div (∑ r, z r) (N : EReal))) (N : EReal)
      = Ideal.div (∑ r, z r * z r) (N : EReal)
          - Ideal.div (∑ r, z r) (N : EReal) * Ideal.div (∑ r, z r) (N : EReal) := by
  obtain ⟨w, rfl⟩ := exists_real_family z hz
  simp only [← coe_finset_sum, div_coe_coe _ hN, ← EReal.coe_sub, ← EReal.coe_mul]
  rw [real_var_identity w N hN hn]

/-- The same identity with every sum spelled from a zero start, `0 + ∑`. -/
theorem var_identity_zero_add {n : ℕ} (z : Fin n → EReal) (hz : ∀ r, IsReal (z r)) (N : ℝ) (hN : N ≠ 0)
    (hn : (n : ℝ) = N) :
    Ideal.div (0 + ∑ r, (z r - Ideal.div (0 + ∑ r, z r) (N : EReal)) * (z r - Ideal.div (0 + ∑ r, z r) (N : EReal)))
        (N : EReal)
      = Ideal.div (0 + ∑ r, z r * z r) (N : EReal)
          - Ideal.div (0 + ∑ r, z r) (N : EReal) * Ideal.div (0 + ∑ r, z r) (N : EReal) := by
  simp only [zero_add]; exact var_identity z hz N hN hn

/-- The mean of the squared deviations of real entries is the image of a nonnegative real. -/
theorem var_nonneg {n : ℕ} (z : Fin n → EReal) (hz : ∀ r, IsReal (z r)) (N : ℝ) (hN : N ≠ 0) (hn : (n : ℝ) = N) :
    ∃ v : ℝ, 0 ≤ v ∧
      Ideal.div (∑ r, (z r - Ideal.div (∑ r, z r) (N : EReal)) * (z r - Ideal.div (∑ r, z r) (N : EReal))) (N : EReal)
        = (v : EReal) := by
  obtain ⟨w, rfl⟩ := exists_real_family z hz
  have hNpos : 0 < N := lt_of_le_of_ne (hn ▸ Nat.cast_nonneg n) (Ne.symm hN)
  simp only [← coe_finset_sum, div_coe_coe _ hN, ← EReal.coe_sub, ← EReal.coe_mul]
  exact ⟨_, div_nonneg (Finset.sum_nonneg fun r _ => mul_self_nonneg _) hNpos.le, rfl⟩

/-- The mean of the squares less the square of the mean, of real entries, is the image of a nonnegative real. -/
theorem var_nonneg' {n : ℕ} (z : Fin n → EReal) (hz : ∀ r, IsReal (z r)) (N : ℝ) (hN : N ≠ 0) (hn : (n : ℝ) = N) :
    ∃ v : ℝ, 0 ≤ v ∧
      Ideal.div (∑ r, z r * z r) (N : EReal)
          - Ideal.div (∑ r, z r) (N : EReal) * Ideal.div (∑ r, z r) (N : EReal) = (v : EReal) := by
  rw [← var_identity z hz N hN hn]; exact var_nonneg z hz N hN hn

/-- The reciprocal square root of a nonnegative real plus the stabiliser word `0x3727C5AC` is real. -/
theorem isReal_rsqrt_add_eps {x : EReal} (hx : ∃ v : ℝ, 0 ≤ v ∧ x = (v : EReal)) :
    IsReal (Ideal.rsqrt (x + Ideal.ofBits .f32 0x3727C5AC#32)) := by
  obtain ⟨v, hv, rfl⟩ := hx
  obtain ⟨e, he, h⟩ := ofBits_eps_pos
  rw [h]; exact isReal_rsqrt_add_pos hv he

end Cert.Lib

end
-- ==== Proof.Stats.lean ====
/-
  The identity that joins the two programs, and the closure of the real entries under the first dense layers.

  One program computes a column's variance as the mean of the squared deviations from the mean, the other as the
  mean of the squares less the square of the mean.  On real entries (neither infinity) both are the same real number;
  the means differ only by a zero added in front of the sum.
-/
import proofs.«153798_j29678224015468_1_alg».proof.Proof.Spec
import proofs.«153798_j29678224015468_1_alg».proof.Proof.LibReal

noncomputable section

namespace Cert.Gin.Real

open Cert.Gin Cert.Lib Idealize.ShloMosaic Idealize.ShloMosaic.ValueIdx

/-- The zero word is zero. -/
theorem zeroW_eq : zeroW = 0 := Ideal.ofBits_zero_f32

/-- The row-count word is the real 50000. -/
theorem nW_eq : nW = ((50000 : ℝ) : EReal) := ofBits_50000

/-- The two means of a column agree: a sum started from zero is the sum. -/
theorem meanR_eq (z : Mat 50000 32) : meanR z = meanK (colSum z) := by
  funext i
  show Ideal.div (zeroW + ∑ r : Fin 50000, z (ix2 r (col i))) nW
    = Ideal.div (∑ r : Fin 50000, z (ix2 r (col i))) nW
  rw [zeroW_eq, zero_add]

/-- The two variances of a column of real entries agree. -/
theorem varR_eq (z : Mat 50000 32) (hz : ∀ i, IsReal (z i)) : varR z = varK (colSum z) (colSumSq z) := by
  funext i
  have h := var_identity_zero_add (fun r : Fin 50000 => z (ix2 r (col i))) (fun r => hz _) (50000 : ℝ)
    (by norm_num) (by norm_num)
  show Ideal.div (zeroW + ∑ r : Fin 50000,
      (z (ix2 r (col i)) - Ideal.div (zeroW + ∑ r : Fin 50000, z (ix2 r (col i))) nW)
        * (z (ix2 r (col i)) - Ideal.div (zeroW + ∑ r : Fin 50000, z (ix2 r (col i))) nW)) nW
    = Ideal.div (∑ r : Fin 50000, z (ix2 r (col i)) * z (ix2 r (col i))) nW
      - Ideal.div (∑ r : Fin 50000, z (ix2 r (col i))) nW * Ideal.div (∑ r : Fin 50000, z (ix2 r (col i))) nW
  rw [zeroW_eq, nW_eq]
  simpa only [zero_add] using h

/-- On real entries the two programs' column statistics agree. -/
theorem stat_eq (z : Mat 50000 32) (hz : ∀ i, IsReal (z i)) : statR z = statK z :=
  Prod.ext (meanR_eq z) (varR_eq z hz)

/-- Dense layers of real arrays are real. -/
theorem mlp1_real (h : Mat 50000 128) (Wa : Mat 128 32) (ba : Mat 1 32) (Wb : Mat 32 32) (bb : Mat 1 32)
    (hh : ∀ i, IsReal (h i)) (hWa : ∀ i, IsReal (Wa i)) (hba : ∀ i, IsReal (ba i)) (hWb : ∀ i, IsReal (Wb i))
    (hbb : ∀ i, IsReal (bb i)) : ∀ i, IsReal (mlp1 h Wa ba Wb bb i) := by
  intro i
  unfold mlp1 mlp1At
  refine IsReal.max (IsReal.add (IsReal.sum_univ _ fun k => IsReal.mul ?_ (hWb _)) (hbb _)) isReal_ofBits_zero
  exact IsReal.max (IsReal.add (IsReal.sum_univ _ fun j => IsReal.mul (hh _) (hWa _)) (hba _)) isReal_ofBits_zero

end Cert.Gin.Real

end
-- ==== Proof.AggReal.lean ====
/-
  The aggregation over incoming edges keeps real entries real.

  The aggregated array is the array itself plus a scatter-add, over the edge targets, of the rows gathered at the
  edge sources, started from zero.  Every gathered entry IS an entry of the array (which one depends on the edge
  list, but it is one), so the updates are real; an entry of the scatter-add is the zero operand's entry plus a
  finite sum of updates (which updates land there depends on the edge list, but the sum is finite), so it is real
  whatever integers the edge list holds.
-/
import proofs.«153798_j29678224015468_1_alg».proof.Defs
import proofs.«153798_j29678224015468_1_alg».proof.Proof.Gen.ReferenceIdeal.Read
import proofs.«153798_j29678224015468_1_alg».proof.Proof.Spec
import proofs.«153798_j29678224015468_1_alg».proof.Proof.LibReal

noncomputable section

namespace Cert.Gin.Real

open Cert.Gin Cert.Lib Idealize.ShloMosaic Idealize.ShloMosaic.ValueIdx

/-- An accumulating scatter of real updates into a real operand is real, at any dimension numbers and any index
    words: each entry is the operand's plus a finite sum of updates. -/
theorem hostScatterAdd_real {s si su : Shape} (d : ScatterDims s si su) {w : Nat} (x : s.Idx → EReal) (idx : IVec si w)
    (upd : su.Idx → EReal) (hx : ∀ i, IsReal (x i)) (hu : ∀ j, IsReal (upd j)) :
    ∀ i, IsReal (Ideal.hostScatterAdd d x idx upd i) := by
  intro i
  unfold Ideal.hostScatterAdd
  exact IsReal.add (hx i) (IsReal.sum _ _ fun j _ => hu j)

/-- A gather of a real array is real, at any dimension numbers and any index words: each entry is one of the array's. -/
theorem gather_real {s si t : Shape} {w : Nat} (d : GatherDims s si t) (x : s.Idx → EReal) (idx : IVec si w)
    (hx : ∀ i, IsReal (x i)) : ∀ j, IsReal (Host.gather d x idx j) :=
  fun j => hx (d.operandIdx j idx)

open Cert.ReferenceIdeal Cert.ReferenceIdeal.Read in
/-- The scatter-add stage at the exact instance is the exact accumulating scatter of its three operands. -/
theorem v13_eq (x : (⟨Cert.ReferenceIdeal.S50000x128, .f32⟩ : BufTy).Contents (Elt Ideal))
    (x1 : (⟨Cert.ReferenceIdeal.S2x800000, .i32⟩ : BufTy).Contents (Elt Ideal)) :
    val_main_v13 (F := Ideal) x x1
      = Ideal.hostScatterAdd scatter_S50000x128_S800000x1_S800000x128_1_0_0_1 (val_main_v11 (F := Ideal))
          (val_main_v12 (F := Ideal) x1) (val_main_v10 (F := Ideal) x x1) := rfl

open Cert.ReferenceIdeal Cert.ReferenceIdeal.Read in
/-- The gather stage reads the array at an index the edge list determines. -/
theorem v10_eq (x : (⟨Cert.ReferenceIdeal.S50000x128, .f32⟩ : BufTy).Contents (Elt Ideal))
    (x1 : (⟨Cert.ReferenceIdeal.S2x800000, .i32⟩ : BufTy).Contents (Elt Ideal)) :
    val_main_v10 (F := Ideal) x x1
      = Host.gather gather_S50000x128_S800000x1_S800000x128_1_0_n_n_0_1_1128 x (val_main_v9 (F := Ideal) x1) := rfl

/-- The aggregation of a real array is real, whatever the edge list holds. -/
theorem agg128_real (x : (⟨Cert.ReferenceIdeal.S50000x128, .f32⟩ : BufTy).Contents (Elt Ideal))
    (x1 : (⟨Cert.ReferenceIdeal.S2x800000, .i32⟩ : BufTy).Contents (Elt Ideal)) (hx : ∀ i, IsReal (x i)) :
    ∀ i, IsReal (Cert.ReferenceIdeal.Read.val_main_v14 (F := Ideal) x x1 i) := by
  intro i
  -- the scatter's operand is the zero word at every entry
  have h11 : ∀ k, IsReal (Cert.ReferenceIdeal.Read.val_main_v11 (F := Ideal) k) := fun k => by
    rw [Cert.ReferenceIdeal.Read.val_main_v11_apply, Cert.ReferenceIdeal.Read.val_main_cst_apply, Ideal.ofBits_def]
    exact isReal_ofBits_zero
  -- its updates are gathered entries of the array
  have h10 : ∀ j, IsReal (Cert.ReferenceIdeal.Read.val_main_v10 (F := Ideal) x x1 j) := fun j => by
    rw [v10_eq]
    exact gather_real _ x _ hx j
  have h13 : IsReal (Cert.ReferenceIdeal.Read.val_main_v13 (F := Ideal) x x1 i) := by
    rw [v13_eq]
    exact hostScatterAdd_real _ _ _ _ h11 h10 i
  rw [Cert.ReferenceIdeal.Read.val_main_v14_apply, Ideal.addf_def]
  exact IsReal.add (hx i) h13

end Cert.Gin.Real

end
-- ==== Proof.PreReal.lean ====
/-
  The precondition, read back: every float argument the first dense layers read holds reals.

  The precondition is a conjunction, over the float arguments, of "every entry's absolute value is below the
  infinity word".  An extended real whose absolute value (the larger of it and its negation) is below +∞ is neither
  infinity, so it is the image of a real.
-/
import proofs.«153798_j29678224015468_1_alg».proof.Defs
import proofs.«153798_j29678224015468_1_alg».proof.Proof.Gen.Pre_finite_inputs
import proofs.«153798_j29678224015468_1_alg».proof.Proof.Spec
import proofs.«153798_j29678224015468_1_alg».proof.Proof.LibReal
import Idealize.ShloMosaic.Lib.ReduceAll

noncomputable section

namespace Cert.Gin.Real

open Cert.Gin Cert.Lib Idealize.ShloMosaic Idealize.ShloMosaic.ValueIdx

/-- The word `0x7F800000` denotes +∞. -/
theorem ofBits_inf : Ideal.ofBits .f32 0x7F800000#32 = ⊤ := by
  simp [Ideal.ofBits, Ideal.ieee]

/-- An extended real whose absolute value is below +∞ is real. -/
theorem isReal_of_abs_lt_top (x : EReal) (h : max x (-x) < ⊤) : IsReal x := by
  induction x using EReal.rec with
  | bot => simp at h
  | coe a => exact isReal_coe a
  | top => simp at h

/-- A rank-0 array has one index. -/
instance subsingleton_idx0 : Subsingleton (⟨0, ![]⟩ : Shape).Idx := ⟨fun a b => funext fun d => d.elim0⟩

/-- One conjunct of the precondition read back, at any shape: if "all entries have absolute value below the infinity
    word" came out true, every entry is real. -/
theorem real_of_all {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (x : FVec Ideal s .f32)
    (e : Host.reduce IntOp.andi
        (cmpf .olt (Host.absf x) (broadcastInDim s ![] hb (constant (⟨0, ![]⟩ : Shape) .f32 0x7F800000#32)))
        (constantI (⟨0, ![]⟩ : Shape) 1 1#1) hr hu ix0 = 1#1) : ∀ i, IsReal (x i) := by
  intro i
  have h := Host.reduce_andi_all _ _ hr hu ix0 e i
  have h' : Ideal.cmp .olt (max (x i) (-(x i))) (Ideal.ofBits .f32 0x7F800000#32) = 1#1 := h
  rw [ofBits_inf] at h'
  unfold Ideal.cmp at h'
  refine isReal_of_abs_lt_top (x i) ?_
  by_contra hn
  simp [hn] at h'

/-- Under the precondition the five float arguments the first dense layers read hold reals. -/
theorem pre_real [Cert.Pre_finite_inputs.Facts]
    (m : (ℓ : Loc Cert.KernelIdeal.nD Cert.KernelIdeal.τ Cert.KernelIdeal.sig) → Buf (Elt Ideal) ℓ) (hpre : Cert.Pre_KernelIdeal m)
    (c : Dev Cert.KernelIdeal.nD) :
    (∀ i, IsReal ((m ((c.tc : Thread Cert.KernelIdeal.nD Cert.KernelIdeal.τ).loc Cert.KernelIdeal.main_arg0) : Mat 50000 128) i))
    ∧ (∀ i, IsReal ((m ((c.tc : Thread Cert.KernelIdeal.nD Cert.KernelIdeal.τ).loc Cert.KernelIdeal.main_arg3) : Mat 128 32) i))
    ∧ (∀ i, IsReal ((m ((c.tc : Thread Cert.KernelIdeal.nD Cert.KernelIdeal.τ).loc Cert.KernelIdeal.main_arg4) : Vct 32) i))
    ∧ (∀ i, IsReal ((m ((c.tc : Thread Cert.KernelIdeal.nD Cert.KernelIdeal.τ).loc Cert.KernelIdeal.main_arg5) : Mat 32 32) i))
    ∧ (∀ i, IsReal ((m ((c.tc : Thread Cert.KernelIdeal.nD Cert.KernelIdeal.τ).loc Cert.KernelIdeal.main_arg6) : Vct 32) i)) := by
  have e := congrFun (hpre c) ValueIdx.ix0
  unfold Cert.Pre_finite_inputs.fn Cert.Pre_finite_inputs.fn_part1 Cert.Pre_finite_inputs.fn_part2
    Cert.Pre_finite_inputs.fn_part3 at e
  dsimp only at e
  simp only [andi, IntOp.andi_eq_one] at e
  obtain ⟨⟨⟨⟨⟨⟨⟨⟨⟨⟨h0, h3⟩, h4⟩, h5⟩, h6⟩, -⟩, -⟩, -⟩, -⟩, -⟩, -⟩ := e
  exact ⟨real_of_all _ _ _ _ h0, real_of_all _ _ _ _ h3, real_of_all _ _ _ _ h4, real_of_all _ _ _ _ h5,
    real_of_all _ _ _ _ h6⟩

end Cert.Gin.Real

end
-- ==== Proof.lean ====
/-
  The certificate: the word-level kernel, its idealization and the idealized reference each run to the end with
  their arguments unchanged, and the two idealized programs end with equal results.

  Both idealized programs compute the same network (Proof/Spec.lean): an edge aggregation, two dense layers with
  rectifiers, a batch normalisation over the rows, a second aggregation and two more dense layers. The kernel forms
  the variance of a column as the mean of the squares less the square of the mean, from two column sums accumulated
  over five row blocks; the reference as the mean of the squared deviations. The two are equal when the entries the
  statistics are taken of are real numbers, and they are: the float inputs are finite by the precondition, an
  aggregated row is a finite sum of input rows whatever the edge list holds, and dense layers of reals are reals.
  Nothing else in the network needs finiteness: the block sums regroup one sum, and the remaining operations are
  the same on both sides.
-/
import proofs.«153798_j29678224015468_1_alg».proof.Defs
import proofs.«153798_j29678224015468_1_alg».proof.Proof.Gen.Kernel
import proofs.«153798_j29678224015468_1_alg».proof.Proof.Gen.Kernel.Frame
import proofs.«153798_j29678224015468_1_alg».proof.Proof.Gen.KernelIdeal
import proofs.«153798_j29678224015468_1_alg».proof.Proof.Gen.KernelIdeal.Frame
import proofs.«153798_j29678224015468_1_alg».proof.Proof.Gen.ReferenceIdeal
import proofs.«153798_j29678224015468_1_alg».proof.Proof.Gen.ReferenceIdeal.Run
import proofs.«153798_j29678224015468_1_alg».proof.Proof.Gen.ReferenceIdeal.Read
import proofs.«153798_j29678224015468_1_alg».proof.Proof.Gen.Pre_finite_inputs
import proofs.«153798_j29678224015468_1_alg».proof.Proof.Spec
import proofs.«153798_j29678224015468_1_alg».proof.Proof.RefAgg
import proofs.«153798_j29678224015468_1_alg».proof.Proof.KValue
import proofs.«153798_j29678224015468_1_alg».proof.Proof.KRun
import proofs.«153798_j29678224015468_1_alg».proof.Proof.RefValue
import proofs.«153798_j29678224015468_1_alg».proof.Proof.Stats
import proofs.«153798_j29678224015468_1_alg».proof.Proof.AggReal
import proofs.«153798_j29678224015468_1_alg».proof.Proof.PreReal
import Idealize.ShloMosaic.Adequacy
import Idealize.ShloMosaic.Init

noncomputable section

namespace Cert.Proof

open Idealize.ShloMosaic Idealize.ShloMosaic.TcCoe Idealize.SL.Sem
open Cert.Gin Cert.Lib

/-- The network with either program's statistics is the same array once the statistics agree on the features they
    are taken of. -/
theorem out_stat_congr (A1 : Mat 50000 128 → Mat 50000 128) (A2 : Mat 50000 32 → Mat 50000 32) (x : Mat 50000 128)
    (W1a : Mat 128 32) (b1a : Vct 32) (W1b : Mat 32 32) (b1b g be : Vct 32) (W2a : Mat 32 32) (b2a : Vct 32)
    (W2b : Mat 32 10) (b2b : Vct 10)
    (h : statR (mlp1 (A1 x) W1a (rowOf b1a) W1b (rowOf b1b)) = statK (mlp1 (A1 x) W1a (rowOf b1a) W1b (rowOf b1b))) :
    out statR A1 A2 x W1a b1a W1b b1b g be W2a b2a W2b b2b = out statK A1 A2 x W1a b1a W1b b1b g be W2a b2a W2b b2b := by
  unfold out; rw [h]

/-- A real vector laid out as one row is real. -/
theorem rowOf_real {k : Nat} (v : Vct k) (hv : ∀ i, IsReal (v i)) : ∀ i, IsReal (rowOf v i) := fun i => hv _

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- The kernel's result array ends at the network with the accumulated statistics, the reference's at the network
    with the host's; on arguments that agree and are finite the two are one array. -/
theorem algebraic : Cert.algebraic_KernelIdeal_ReferenceIdeal := by
  intro m ρ m' ρ' hpre hagree
  refine ⟨fun c => out statK (fun x => Cert.ReferenceIdeal.Read.val_main_v14 (F := Ideal) x (m ((c.tc : Thread Cert.KernelIdeal.nD Cert.KernelIdeal.τ).loc Cert.KernelIdeal.main_arg1)))
      (fun z => Cert.ReferenceIdeal.Agg.agg32 (F := Ideal) z (m ((c.tc : Thread Cert.KernelIdeal.nD Cert.KernelIdeal.τ).loc Cert.KernelIdeal.main_arg1)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KV.kernel_value m ρ c), (h c).2⟩) (Cert.KernelIdeal.KV.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v72_eq, Cert.ReferenceIdeal.RefValue.ref_out,
      (hagree c).1, (hagree c).2.1, (hagree c).2.2.2.1, (hagree c).2.2.2.2.1, (hagree c).2.2.2.2.2.1,
      (hagree c).2.2.2.2.2.2.1, (hagree c).2.2.2.2.2.2.2.1, (hagree c).2.2.2.2.2.2.2.2.1,
      (hagree c).2.2.2.2.2.2.2.2.2.1, (hagree c).2.2.2.2.2.2.2.2.2.2.1, (hagree c).2.2.2.2.2.2.2.2.2.2.2.1,
      (hagree c).2.2.2.2.2.2.2.2.2.2.2.2]
    obtain ⟨h0, h3, h4, h5, h6⟩ := Cert.Gin.Real.pre_real m hpre c
    exact out_stat_congr _ _ _ _ _ _ _ _ _ _ _ _ _
      (Cert.Gin.Real.stat_eq _ (Cert.Gin.Real.mlp1_real _ _ _ _ _
        (Cert.Gin.Real.agg128_real _ _ h0) h3 (rowOf_real _ h4) h5 (rowOf_real _ h6)))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
